-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S2048 : Shape := ⟨1, ![2048]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16x2048 .f32) (main_arg1 : IVec S16x2048 32) (main_arg2 : FVec F S2048 .f32) : IVec S_ 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_c : IVec S_ 1 := constantI S_ 1 1#1
  let main_v3 : IVec S_ 1 := (fun x v => Host.reduce IntOp.andi x v reducesTo_S16x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_c_2 : IVec S_ 32 := constantI S_ 32 0#32
  let main_v9 : IVec S16x2048 32 := broadcastInDim S16x2048 ![] bcast_S_S16x2048 main_c_2
  let main_v10 : IVec S16x2048 1 := cmpi .eq main_arg1 main_v9
  let main_c_3 : IVec S_ 32 := constantI S_ 32 1#32
  let main_v11 : IVec S16x2048 32 := broadcastInDim S16x2048 ![] bcast_S_S16x2048 main_c_3
  let main_v12 : IVec S16x2048 1 := cmpi .eq main_arg1 main_v11
  let main_v13 : IVec S16x2048 1 := ori main_v10 main_v12
  let main_c_4 : IVec S_ 1 := constantI S_ 1 1#1
  let main_v14 : IVec S_ 1 := (fun x v => Host.reduce IntOp.andi x v reducesTo_S16x2048_S_d0_1 h_S_) main_v13 main_c_4
  let main_v15 : IVec S_ 1 := andi main_v8 main_v14
  main_v15
-- ==== Kernel.lean ====
abbrev S16x2048 : Shape := ⟨2, ![16, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S16x1 : Shape := ⟨2, ![16, 1]⟩
abbrev S8x256 : Shape := ⟨2, ![8, 256]⟩
abbrev S8x512 : Shape := ⟨2, ![8, 512]⟩
abbrev S256x512 : Shape := ⟨2, ![256, 512]⟩
abbrev S8x1 : Shape := ⟨2, ![8, 1]⟩
abbrev S8x256x1 : Shape := ⟨3, ![8, 256, 1]⟩
abbrev S8x1x512 : Shape := ⟨3, ![8, 1, 512]⟩
abbrev S8x256x512 : Shape := ⟨3, ![8, 256, 512]⟩
abbrev S1x256x512 : Shape := ⟨3, ![1, 256, 512]⟩
abbrev S8 : Shape := ⟨1, ![8]⟩

abbrev nBuf : Space → Nat
  | .hbm => 28
  | .vmem => 12
  | .smem => 0
  | _ => 0

abbrev bufTy : (tb : Table) → Fin (tcTables nBuf tb) → BufTy
  | .hbm, ⟨0, _⟩ => ⟨S16x2048, .f32⟩
  | .hbm, ⟨1, _⟩ => ⟨S16x2048, .i32⟩
  | .hbm, ⟨2, _⟩ => ⟨S2048, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2048x1, .f32⟩
  | .hbm, ⟨13, _⟩ => ⟨S1x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x1, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S16x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S8x256, .f32⟩
  | .local _ .vmem, ⟨1, _⟩ => ⟨S8x256, .f32⟩
  | .local _ .vmem, ⟨2, _⟩ => ⟨S8x512, .f32⟩
  | .local _ .vmem, ⟨3, _⟩ => ⟨S8x512, .f32⟩
  | .local _ .vmem, ⟨4, _⟩ => ⟨S8x256, .f32⟩
  | .local _ .vmem, ⟨5, _⟩ => ⟨S8x256, .f32⟩
  | .local _ .vmem, ⟨6, _⟩ => ⟨S8x512, .f32⟩
  | .local _ .vmem, ⟨7, _⟩ => ⟨S8x512, .f32⟩
  | .local _ .vmem, ⟨8, _⟩ => ⟨S256x512, .f32⟩
  | .local _ .vmem, ⟨9, _⟩ => ⟨S256x512, .f32⟩
  | .local _ .vmem, ⟨10, _⟩ => ⟨S8x1, .f32⟩
  | .local _ .vmem, ⟨11, _⟩ => ⟨S8x1, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S16x2048 : S_.BroadcastsInDim S16x2048 (![] : Fin 0 → Fin S16x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  inb_S8x1_S8x1_0_0 : ∀ a, (![0, 0] : Fin 2 → Nat) a + S8x1.size a ≤ S8x1.size a
  h_S8x1 : 0 < S8x1.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S8x256_S8x256x1 : S8x256.ShapeCasts S8x256x1
  shapeCasts_S8x512_S8x1x512 : S8x512.ShapeCasts S8x1x512
  broadcasts_S8x256x1_S8x256x512 : S8x256x1.Broadcasts S8x256x512
  broadcasts_S8x1x512_S8x256x512 : S8x1x512.Broadcasts S8x256x512
  shapeCasts_S256x512_S1x256x512 : S256x512.ShapeCasts S1x256x512
  broadcasts_S1x256x512_S8x256x512 : S1x256x512.Broadcasts S8x256x512
  reduces_S8x256x512_S8x256 : S8x256x512.Reduces [2] S8x256
  reduces_S8x256_S8 : S8x256.Reduces [1] S8
  shapeCasts_S8_S8x1 : S8.ShapeCasts S8x1
  shapeCasts_S8x1_S8x1 : S8x1.ShapeCasts S8x1
  reducesTo_S16x1_S_d0_1 : S16x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S16x2048.size a
  hwx0_0 : ∀ i : grid0.Coords, EltTy.bits .f32 = 32 ∨ (Rect.block (s := S16x2048) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S16x2048.size a
  hwx0_1 : ∀ i : grid0.Coords, EltTy.bits .f32 = 32 ∨ (Rect.block (s := S16x2048) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x2048.size a
  hwx0_2 : ∀ i : grid0.Coords, EltTy.bits .f32 = 32 ∨ (Rect.block (s := S16x2048) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S16x2048.size a
  hwx0_3 : ∀ i : grid0.Coords, EltTy.bits .f32 = 32 ∨ (Rect.block (s := S16x2048) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x2048.size a
  hwx0_4 : ∀ i : grid0.Coords, EltTy.bits .f32 = 32 ∨ (Rect.block (s := S2048x2048) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S16x1.size a
  hwx0_5 : ∀ i : grid0.Coords, EltTy.bits .f32 = 32 ∨ (Rect.block (s := S16x1) S8x1.size (cc0_transform_5 i) (hinb0_5 i)).WholeWords (EltTy.packing .f32)

variable [Facts₀]

abbrev win0_0 : Pipeline.Window sig grid0 :=
  Pipeline.Window.ofSpec (Memref.whole main_v5) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S8x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048 : Shape := ⟨2, ![16, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S1x2048x2048 : Shape := ⟨3, ![1, 2048, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .i32⟩
  | .hbm, ⟨2, _⟩ => ⟨S2048, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S2048x1, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x1, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S16x2048x1, .f32⟩
  | .hbm, ⟨27, _⟩ => ⟨S16x1x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x1, .f32⟩
  | .hbm, ⟨32, _⟩ => ⟨S16x1x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x1, .f32⟩
  | .hbm, ⟨37, _⟩ => ⟨S16x1x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S1x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048x2048, .f32⟩
  | .hbm, ⟨50, _⟩ => ⟨S16x2048x2048, .f32⟩
  | .hbm, ⟨51, _⟩ => ⟨S_, .f32⟩
  | .hbm, ⟨52, _⟩ => ⟨S16x2048x2048, .f32⟩
  | .hbm, ⟨53, _⟩ => ⟨S16x2048x2048, .f32⟩
  | .hbm, ⟨54, _⟩ => ⟨S_, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_call0_cst : Ref sig .tc := ⟨.hbm, 44, rfl⟩
abbrev main_call0_v0 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_call1_cst : Ref sig .tc := ⟨.hbm, 51, rfl⟩
abbrev main_call1_v0 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts₀]

class Facts : Prop extends Facts₀ where

variable [Facts]
-- ==== Proof.WShared.lean ====
/-
  What the two runs of the ranking kernel's body share.

  The grid has 64 points (2 sample blocks × 8 row blocks × 4 column blocks, the column block fastest). The body's one
  branch resets the output block when the row block and the column block are both the first, that is at the points
  0 and 32; at every point it then adds the block's partial sum to the output block. Here: that condition in closed
  form over the grid, and the names of the staging buffers the pipeline hands the body at a point.
-/
import proofs.«181403_j43963285241920_2_alg».proof.Proof.Gen.Kernel.Launch
import proofs.«181403_j43963285241920_2_alg».proof.Proof.Gen.Kernel.Skeleton
import proofs.«181403_j43963285241920_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: row-block coordinate and column-block coordinate both zero. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the first point of each sample block: the points 0 and 32. -/
theorem hcond0 : ∀ t : Fin cfg0.N, cond0 (grid0.coords t) ↔ t.val % 32 = 0 :=
  (by decide +kernel : ∀ t : Fin grid0.N, cond0 (grid0.coords t) ↔ t.val % 32 = 0)

/-- Each window's current staging buffer at point `t`, as the pipeline passes it to the body, and its wholeness. -/
abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x1 .f32 := win0_5.stage (cfg0.slots t 5)
abbrev hs5 (t : Fin cfg0.N) : (ms5 t).IsWhole := hstage0_5 ((cfg0.slots t 5).cast nbuf0_5)

/-- One staging buffer of the output window, through which its contents are stated. -/
abbrev VO5 : View sig .tc .vmem S8x1 .f32 := (Memref.whole cc0_stg5_0 : Memref sig .tc .vmem S8x1 .f32).view

end Cert.Kernel.Hand

end
-- ==== Proof.WRunA.lean ====
/-
  The body's run at a point where the output block is reset (both block coordinates zero): on whole staging buffers, the five inputs at any contents and the output at anything, the body runs to the end leaving the inputs as they were and the output buffer with the listed stores written — the zero fill, then the fill plus the block's partial sum.
-/
import proofs.«181403_j43963285241920_2_alg».proof.Proof.WShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer when the reset branch is taken, with the proof that
    the body runs to its continuation from the inputs' buffers at their contents and the output's at anything. -/
noncomputable def kernelRunA (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : cond0 i)
    (x0 : Vec F S8x256 .f32) (x1 : Vec F S8x512 .f32) (x2 : Vec F S8x256 .f32) (x3 : Vec F S8x512 .f32) (x4 : Vec F S256x512 .f32) :
    { L5 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0__ranking_kernel i arg3 harg3 arg4 harg4 arg5 harg5 arg6 harg6 arg7 harg7 arg8 harg8) K } := by
  refine ⟨?_, fun E K => ?run⟩
  case run =>
    simp only [cc0__ranking_kernel_eq_skeleton]; unfold cc0__ranking_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.Hand

end
-- ==== Proof.WRunB.lean ====
/-
  The body's run at a point where the output block is carried (some block coordinate nonzero): on whole staging buffers, the five inputs at any contents and the output at its running contents, the body runs to the end leaving the inputs as they were and the output buffer with its one store written — the running contents plus the block's partial sum.
-/
import proofs.«181403_j43963285241920_2_alg».proof.Proof.WRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece the body's store leaves in the output's staging buffer when the reset branch is not taken, with the proof
    that the body runs to its continuation from the inputs' buffers at their contents and the output's at its running
    contents `xo`. -/
noncomputable def kernelRunB (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : ¬cond0 i)
    (x0 : Vec F S8x256 .f32) (x1 : Vec F S8x512 .f32) (x2 : Vec F S8x256 .f32) (x3 : Vec F S8x512 .f32) (x4 : Vec F S256x512 .f32) (xo : Vec F S8x1 .f32) :
    { L5 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0__ranking_kernel i arg3 harg3 arg4 harg4 arg5 harg5 arg6 harg6 arg7 harg7 arg8 harg8) K } := by
  refine ⟨?_, fun E K => ?run⟩
  case run =>
    simp only [cc0__ranking_kernel_eq_skeleton]; unfold cc0__ranking_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.Hand

end
-- ==== Proof.WDats.lean ====
/-
  The pipeline's proof data for the ranking kernel, and the body obligation.

  What the output block's staging buffer holds after the body at point `t` is defined by recursion on the point: at the
  first point of a sample block (`t % 32 = 0`) the reset run's stores over the point's five input blocks; at any other
  point the carrying run's store over the input blocks and what the point before left (the buffer is written back only
  at the last point of a sample block, `t % 32 = 31`, so between two points of one sample block it is kept). The scores
  array and the labels array are each read through two windows (a row-block window and a column-block window): each of
  the two holds half of the array's share.
-/
import proofs.«181403_j43963285241920_2_alg».proof.Proof.WRunB
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s unscoped buffers at launch, and after the host operations before the region. -/
abbrev V0 (c : Dev nD) : Valuation τ sig (Elt F) := fun b => m (c, b)
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a run leaves in the output block's buffer -/

/-- The reset run's stores cover the block (each is the whole block). -/
theorem coverA (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : cond0 i)
    (x0 : Vec F S8x256 .f32) (x1 : Vec F S8x512 .f32) (x2 : Vec F S8x256 .f32) (x3 : Vec F S8x512 .f32) (x4 : Vec F S256x512 .f32) (y : S8x1.Idx) :
    ∃ pc ∈ (kernelRunA c i arg3 harg3 arg4 harg4 arg5 harg5 arg6 harg6 arg7 harg7 arg8 harg8 hc0 x0 x1 x2 x3 x4).1, y ∈ pc.1.set :=
  View.cover_of_tiledL (kernelRunA c i arg3 harg3 arg4 harg4 arg5 harg5 arg6 harg6 arg7 harg7 arg8 harg8 hc0 x0 x1 x2 x3 x4).1 S8x1.size (by sl_kernel_rfl) y

/-- What the reset run leaves: its stores read back. -/
def outA (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : cond0 i)
    (x0 : Vec F S8x256 .f32) (x1 : Vec F S8x512 .f32) (x2 : Vec F S8x256 .f32) (x3 : Vec F S8x512 .f32) (x4 : Vec F S256x512 .f32) : Vec F S8x1 .f32 :=
  VO5.read (Elt F) (VO5.writes (Elt F) VO5.junk (kernelRunA c i arg3 harg3 arg4 harg4 arg5 harg5 arg6 harg6 arg7 harg7 arg8 harg8 hc0 x0 x1 x2 x3 x4).1)

/-- The carrying run's store covers the block. -/
theorem coverB (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : ¬cond0 i)
    (x0 : Vec F S8x256 .f32) (x1 : Vec F S8x512 .f32) (x2 : Vec F S8x256 .f32) (x3 : Vec F S8x512 .f32) (x4 : Vec F S256x512 .f32) (xo : Vec F S8x1 .f32) (y : S8x1.Idx) :
    ∃ pc ∈ (kernelRunB c i arg3 harg3 arg4 harg4 arg5 harg5 arg6 harg6 arg7 harg7 arg8 harg8 hc0 x0 x1 x2 x3 x4 xo).1, y ∈ pc.1.set :=
  View.cover_of_tiledL (kernelRunB c i arg3 harg3 arg4 harg4 arg5 harg5 arg6 harg6 arg7 harg7 arg8 harg8 hc0 x0 x1 x2 x3 x4 xo).1 S8x1.size (by sl_kernel_rfl) y

/-- What the carrying run leaves: its store read back. -/
def outB (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : ¬cond0 i)
    (x0 : Vec F S8x256 .f32) (x1 : Vec F S8x512 .f32) (x2 : Vec F S8x256 .f32) (x3 : Vec F S8x512 .f32) (x4 : Vec F S256x512 .f32) (xo : Vec F S8x1 .f32) : Vec F S8x1 .f32 :=
  VO5.read (Elt F) (VO5.writes (Elt F) VO5.junk (kernelRunB c i arg3 harg3 arg4 harg4 arg5 harg5 arg6 harg6 arg7 harg7 arg8 harg8 hc0 x0 x1 x2 x3 x4 xo).1)

/-! ## The accumulation, point by point -/

/-- What the output block's staging buffer holds after the body at position `n`. -/
def outsAt (c : Dev nD) : (n : ℕ) → n < cfg0.N → Vec F S8x1 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 32 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- At a point where the block is reset: the reset run's contents. -/
theorem outsAt_A (c : Dev nD) (t : Fin cfg0.N) (h0 : t.val % 32 = 0) :
    outsAt m c t.val t.isLt = outA c (grid0.coords t) (ms0 t) (hs0 t) (ms1 t) (hs1 t) (ms2 t) (hs2 t) (ms3 t) (hs3 t) (ms4 t) (hs4 t) (ms5 t) (hs5 t) ((hcond0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- At a point where the block is carried: the carrying run's contents over what the point before left. -/
theorem outsAt_B (c : Dev nD) (t : Fin cfg0.N) (h0 : ¬t.val % 32 = 0) :
    outsAt m c t.val t.isLt = outB c (grid0.coords t) (ms0 t) (hs0 t) (ms1 t) (hs1 t) (ms2 t) (hs2 t) (ms3 t) (hs3 t) (ms4 t) (hs4 t) (ms5 t) (hs5 t) (fun h => h0 ((hcond0 t).mp h)) (iblk m c 0 t) (iblk m c 1 t) (iblk m c 2 t) (iblk m c 3 t) (iblk m c 4 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its block and
    the output's at `outsAt`; the invariant the scoped buffers no window stages; nothing owed; of the scores array and of
    the labels array the row-block window holds the left half of the share and the column-block window the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = (outsAt m c t.val t.isLt) := by dsimp only [dats]

/-- Each input's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after_in4]; unfold Dat.blockOf iblk; rw [A_eq]; try rfl) t d).trans
    (by unfold Dat.fetched Dat.blockOf iblk; rw [A_eq]; try rfl)

/-- At a point where the block is carried the output's buffer holds what the body left at the point before: the point
    is not the first, and the buffer was not written back between. -/
theorem before_out_B (c : Dev nD) (t : Fin cfg0.N) (h0 : ¬t.val % 32 = 0) (d) :
    (dats m 0 c).before 5 t d = (outsAt m c (t.val - 1) (Nat.lt_of_le_of_lt (Nat.sub_le _ _) t.isLt)) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the closed form says whether the point resets the
    block or carries it, and a carried block holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  have hN : t.val < 64 := lt_of_lt_of_eq t.isLt (show cfg0.N = 64 from N_0)
  by_cases h0 : t.val % 32 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ ((hcond0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _)
  · rw [outsAt_B m c t h0]
    simp only [before_out_B m c t h0]
    unfold outB
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (fun h => h0 ((hcond0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.WSharedArrays.lean ====
/-
  The arrays behind the six windows of the pipeline, as points-tos.

  Windows 0 and 1 read one array (main_v5), windows 2 and 3 read one array (main_v6), window 4 reads main_v17 and
  window 5, the output, is main_v18.  The distinct arrays behind the windows are therefore four, and the separating
  conjunction of their full-share points-tos is a chain of four.  An array that two windows read is held by each of
  them at one half of the full share: the full share is the composition of its left and right halves, so a
  full-share points-to is the separating conjunction of the two half-share points-tos, and conversely.
-/
import proofs.«181403_j43963285241920_2_alg».proof.Proof.Gen.Kernel.Launch
import Idealize.ShloMosaic.Lib.Pipeline.Kit
import Idealize.ShloMosaic.Rules.PointsTo

noncomputable section

namespace Cert.Kernel.Shared

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The distinct arrays behind the six windows are four. -/
theorem arrRefs_eq :
    Finset.univ.image (Pipeline.arrRef spec0) = [main_v5, main_v6, main_v17, main_v18].toFinset := by decide

/-- The distinct arrays behind the windows, each whole at the full share: a chain of four points-tos. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_v6) ↦{fullShare} V main_v6) ∗ (((c : Thread nD τ).loc main_v17) ↦{fullShare} V main_v17) ∗ (((c : Thread nD τ).loc main_v18) ↦{fullShare} V main_v18)) := by
  unfold Pipeline.arrBufs
  exact bigSep_eq_bigSepL_of_eq [main_v5, main_v6, main_v17, main_v18] arrRefs_eq (by decide) _

/-- The chain of four, with the share of each array that two windows read split between them: six conjuncts in
    window order, each direction an entailment. -/
theorem split_windows (c : Dev nD) (V : (b : Ref sig .tc) → Buf (Elt F) ((c : Thread nD τ).loc b)) :
    (iprop((((c : Thread nD τ).loc main_v5) ↦{fullShare} V main_v5) ∗ (((c : Thread nD τ).loc main_v6) ↦{fullShare} V main_v6) ∗ (((c : Thread nD τ).loc main_v17) ↦{fullShare} V main_v17) ∗ (((c : Thread nD τ).loc main_v18) ↦{fullShare} V main_v18)) : sProp 𝕄)
      ⊣⊢ iprop((((c : Thread nD τ).loc main_v5) ↦{fullShare.left} V main_v5) ∗ (((c : Thread nD τ).loc main_v5) ↦{fullShare.right} V main_v5) ∗ (((c : Thread nD τ).loc main_v6) ↦{fullShare.left} V main_v6) ∗ (((c : Thread nD τ).loc main_v6) ↦{fullShare.right} V main_v6) ∗ (((c : Thread nD τ).loc main_v17) ↦{fullShare} V main_v17) ∗ (((c : Thread nD τ).loc main_v18) ↦{fullShare} V main_v18)) :=
  (Laws.sep_congr (pointsTo_share (PosShare.mem_left_op_right fullShare))
      (Laws.sep_congr_left (pointsTo_share (PosShare.mem_left_op_right fullShare)))).trans
    (Laws.sep_assoc.trans (Laws.sep_congr_right (Laws.sep_congr_right Laws.sep_assoc)))

/-- The same as an equation of propositions. -/
theorem split_windows_eq (c : Dev nD) (V : (b : Ref sig .tc) → Buf (Elt F) ((c : Thread nD τ).loc b)) :
    (iprop((((c : Thread nD τ).loc main_v5) ↦{fullShare} V main_v5) ∗ (((c : Thread nD τ).loc main_v6) ↦{fullShare} V main_v6) ∗ (((c : Thread nD τ).loc main_v17) ↦{fullShare} V main_v17) ∗ (((c : Thread nD τ).loc main_v18) ↦{fullShare} V main_v18)) : sProp 𝕄)
      = iprop((((c : Thread nD τ).loc main_v5) ↦{fullShare.left} V main_v5) ∗ (((c : Thread nD τ).loc main_v5) ↦{fullShare.right} V main_v5) ∗ (((c : Thread nD τ).loc main_v6) ↦{fullShare.left} V main_v6) ∗ (((c : Thread nD τ).loc main_v6) ↦{fullShare.right} V main_v6) ∗ (((c : Thread nD τ).loc main_v17) ↦{fullShare} V main_v17) ∗ (((c : Thread nD τ).loc main_v18) ↦{fullShare} V main_v18)) :=
  equiv_iff.mp ⟨(split_windows c V).1, (split_windows c V).2⟩

/-- The arrays the launch hands over, per window: the two steps together. -/
theorem arrBufs_windows (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare.left} V main_v5) ∗ (((c : Thread nD τ).loc main_v5) ↦{fullShare.right} V main_v5) ∗ (((c : Thread nD τ).loc main_v6) ↦{fullShare.left} V main_v6) ∗ (((c : Thread nD τ).loc main_v6) ↦{fullShare.right} V main_v6) ∗ (((c : Thread nD τ).loc main_v17) ↦{fullShare} V main_v17) ∗ (((c : Thread nD τ).loc main_v18) ↦{fullShare} V main_v18)) :=
  (arrBufs_chain c V).trans (split_windows_eq c V)

end Cert.Kernel.Shared

end
-- ==== Proof.WLaunch.lean ====
/-
  The run of @main: twenty host operations, the kernel region, four host operations.

  Between two items a core holds every unscoped buffer whole at a valuation: the launch contents, then the fold of the
  first host operations over them, then the same with the output array replaced by what the region wrote back, then the
  fold of the last host operations over that. The region is entered by splitting the scores array's and the labels
  array's buffers in two halves each (one half per window that reads the array) and left by joining them again: an input
  array is never written, so both halves come back at the entry contents. Every weakly fair execution therefore
  terminates with each buffer at the last valuation.
-/
import proofs.«181403_j43963285241920_2_alg».proof.Proof.WDats
import proofs.«181403_j43963285241920_2_alg».proof.Proof.WSharedArrays
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- What the region leaves in the output array. -/
abbrev outFinal (c : Dev nD) : Buf (Elt F) ((c : Thread nD τ).loc main_v18) := (dats m 0 c).arrAt 5 cfg0.N

/-- Core `c`'s unscoped buffers after the region, and after the host operations that follow it. -/
abbrev V2 (c : Dev nD) : Valuation τ sig (Elt F) := Function.update (V1 m c) main_v18 (outFinal m c)
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The references the host operations write. -/
abbrev hostOps0_W : List (Ref sig .tc) := [main_v0, main_v1, main_cst, main_v2, main_v3, main_cst_0, main_v4, main_v5, main_v6, main_v7, main_v8, main_v9, main_v10, main_v11, main_v12, main_v13, main_v14, main_v15, main_v16, main_v17]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, Finset.singleton_subset_iff, List.mem_toFinset]; (repeat' constructor) <;> exact List.mem_map_of_mem (by decide))
abbrev hostOps1_W : List (Ref sig .tc) := [main_cst_1, main_v19, main_cst_2, main_v20]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, Finset.singleton_subset_iff, List.mem_toFinset]; (repeat' constructor) <;> exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v18] : List (Ref sig .tc))) : V2 m c r = V1 m c r := by
  simp only [V2, Function.update_of_ne (StableHlo.devRef_ne_of_ne (List.ne_of_not_mem_cons h) : (Proc.devRef .tc r : DevRef τ sig) ≠ Proc.devRef .tc main_v18)]
theorem V3_of (c : Dev nD) (r : Ref sig .tc) (h : r ∉ hostOps1_W) : V3 m c r = V2 m c r :=
  StableHlo.after_of_writes_sub hostOps1 _ hostOps1_writes h

/-- No item writes an argument array. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_main_arg2 (c : Dev nD) : V3 m c main_arg2 = m ((c : Thread nD τ).loc main_arg2) :=
  (V3_of m c main_arg2 (by decide)).trans <| (V2_of m c main_arg2 (by decide)).trans <| (V1_of m c main_arg2 (by decide)).trans rfl

/-! ## The items as segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- The host operations before the region, over the unscoped buffers from the launch contents. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The host operations after the region, over the unscoped buffers as the region left them. -/
def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-! ## The arrays, window by window -/

/-- The pipeline's arrays as six points-to facts in window order: the scores array and the labels array at half shares
    twice, the table and the output whole. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_v5) ↦{fullShare.left} Fa 0) ∗ (((c : Thread nD τ).loc main_v5) ↦{fullShare.right} Fa 1)
          ∗ (((c : Thread nD τ).loc main_v6) ↦{fullShare.left} Fa 2) ∗ (((c : Thread nD τ).loc main_v6) ↦{fullShare.right} Fa 3)
          ∗ (((c : Thread nD τ).loc main_v17) ↦{fullShare} Fa 4) ∗ (((c : Thread nD τ).loc main_v18) ↦{fullShare} Fa 5)) := by
  unfold Dat.arrays
  have hw : ∀ w : Fin cfg0.W, ((cfg0.win w).arr.view.loc (c : Thread nD τ) ↦[(cfg0.win w).arr.view.set]{(dats m 0 c).share w} Fa w : sProp 𝕄)
      = (((c : Thread nD τ).loc (Pipeline.arrRef spec0 w)) ↦{(dats m 0 c).share w} Fa w) := fun w => by
    rw [(arr_whole0 w).set_eq_univ]
  rw [bigSep_congr (fun w _ => hw w), bigSep_W0]
  rfl

/-- At entry every array is at the region-entry contents. -/
theorem arrAt_zero (c : Dev nD) (w : Fin cfg0.W) : (dats m 0 c).arrAt w 0 = V m c (Pipeline.arrRef spec0 w) := by
  show (dats m 0 c).A w = _
  dsimp only [dats]

/-- ENTRY: the distinct buffers behind the arrays, each whole at the region-entry contents, are the pipeline's arrays
    at entry — the scores array and the labels array each dealt in two halves. -/
theorem entry_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Shared.arrBufs_windows, arrays_chain]
  simp only [arrAt_zero]
  exact .rfl

/-- After the region the valuation differs from the one before it at the output array only. -/
theorem rest_V2 (c : Dev nD) :
    (Pipeline.unscopedRest (Ix := Unit) (Name := ℕ) (U := UR sig nD τ) (Lvl := ℕ) spec0 c (fun b => V2 m c b) : sProp 𝕄)
      = Pipeline.unscopedRest (Ix := Unit) (Name := ℕ) (U := UR sig nD τ) (Lvl := ℕ) spec0 c (V m c) := by
  unfold Pipeline.unscopedRest
  refine bigSep_congr fun b hb => ?_
  have hne : b ≠ main_v18 := fun e => (Finset.mem_sdiff.mp hb).2 (e ▸ Finset.mem_image.mpr ⟨5, Finset.mem_univ _, rfl⟩)
  dsimp only
  rw [V2_of m c b (by simpa using hne)]

/-- EXIT: the pipeline's arrays after the last point — every input array at its entry contents (an input array is never
    written), its two halves joined again, the output array at what the write-backs left — are the distinct buffers
    behind the arrays at the valuation after the region. -/
theorem exit_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V2 m c b) := by
  rw [Shared.arrBufs_windows, arrays_chain]
  simp only [(dats m 0 c).arrAt_in 0 rfl, (dats m 0 c).arrAt_in 1 rfl, (dats m 0 c).arrAt_in 2 rfl, (dats m 0 c).arrAt_in 3 rfl,
    (dats m 0 c).arrAt_in 4 rfl, A_eq, V2_of m c main_v5 (by decide), V2_of m c main_v6 (by decide), V2_of m c main_v17 (by decide)]
  rw [show V2 m c main_v18 = outFinal m c from Function.update_self ..]

-- an entailment stated over `cfgs p` at the pinned configuration unifies only when unification may unfold plain
-- definitions in a metavariable's type
set_option backward.isDefEq.respectTransparency.types false in
/-- THE REGION: the layout facts, the body obligation, and the protocol around it — entered from every unscoped buffer at
    the valuation before it, the arrays' buffers into the pipeline (split per window), the others bypassing; left with
    every unscoped buffer at the valuation after it. -/
def reg0 : RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X _ := iprop(emp)
  Y _ := iprop(emp)
  Z c := Pipeline.unscopedRest (Ix := Unit) (Name := ℕ) (U := UR sig nD τ) (Lvl := ℕ) spec0 c (V m c)
  hentry c := by
    rw [← Pipeline.unscopedBufs_held (Ix := Unit) (Name := ℕ) (U := UR sig nD τ) (Lvl := ℕ) c (V1 m c),
      Pipeline.unscopedBufs_split₀ cfgs 0 winFacts₀0.arr_unscoped c]
    iintro ⟨⟨⟨Ha, Hrest⟩, HO⟩, -, -⟩
    imodintro
    isplitl [Ha]; · iapply (entry_arrays m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [show (dats m 0 c).Φ (Fin.last _) = Pipeline.scopedRest (Ix := Unit) (Name := ℕ) (U := UR sig nD τ) (Lvl := ℕ) (Val := Elt F) spec0 c from rfl,
      Pipeline.ownSems0_none]
    iintro Hr
    isplitr; · iempintro
    isplitr; · iempintro
    iexact Hr
  hexit c := by
    rw [← Pipeline.unscopedBufs_held (Ix := Unit) (Name := ℕ) (U := UR sig nD τ) (Lvl := ℕ) c (V2 m c),
      Pipeline.unscopedBufs_split₀ cfgs 0 winFacts₀0.arr_unscoped c, rest_V2]
    iintro ⟨Ha, HO, -, HZ⟩
    imodintro
    isplitr [HO]
    · isplitl [Ha]; · iapply (exit_arrays m c); iexact Ha
      iexact HZ
    · unfold Pipeline.Dat.owesAt Pipeline.owesWithin
      icases HO with ⟨%W, -, HO⟩; iexists W; iexact HO

/-- @main as the list of its three items. -/
abbrev segs : List (Seg (pcfgs (F := F)) adm (dats m) () defs₀ 𝒱₀ L lv) := [.host (seg0 m), .region (reg0 m), .host (seg2 m)]

/-- What every final state satisfies: the result buffer and the three arguments at the last valuation, the arguments'
    being their launch contents. -/
def QC : PUnit × MemSt nD τ sig (Elt F) → Prop := fun r => ∀ c : Dev nD,
  r.2.mem ((c : Thread nD τ).loc main_v20) = V3 m c main_v20
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

-- the kit's implicit arguments are found by unifying its conclusion with this one, which takes unfolding plain
-- definitions in a metavariable's type
set_option backward.isDefEq.respectTransparency.types false in
/-- At the compiled mesh, for any float values, from any memory with zero counters: every weakly fair execution of
    @main on the TensorCores terminates, nothing faulting, and every final state has the result at the last valuation
    and the arguments unchanged. -/
theorem run_main : θ_run defs (onTc (τ := τ) (main (F := F))) ⟨m, fun _ => 0, ρ⟩ (QC m) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists ∅; iexact HO)
    (QY := fun c s => s.mem ((c : Thread nD τ).loc main_v20) = V3 m c main_v20
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v20) (Finset.mem_filter.mpr ⟨StableHlo.devRef_mem_tcRefs main_v20, by decide⟩),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c),
          (h (Proc.devRef .tc main_arg2) (Finset.mem_filter.mpr ⟨StableHlo.devRef_mem_tcRefs main_arg2, by decide⟩)).trans (V3_main_arg2 m c)⟩
      · iexact HSI)
    (hQ := fun _ h => h)

/-- The frame: the program runs, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KShared.lean ====
/-
  What the two runs of the ranking kernel's body share.

  The grid has 64 points (2 sample blocks × 8 row blocks × 4 column blocks, the column block fastest). The body's one
  branch resets the output block when the row block and the column block are both the first, that is at the points
  0 and 32; at every point it then adds the block's partial sum to the output block. Here: that condition in closed
  form over the grid, and the names of the staging buffers the pipeline hands the body at a point.
-/
import proofs.«181403_j43963285241920_2_alg».proof.Proof.Gen.KernelIdeal.Launch
import proofs.«181403_j43963285241920_2_alg».proof.Proof.Gen.KernelIdeal.Skeleton
import proofs.«181403_j43963285241920_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: row-block coordinate and column-block coordinate both zero. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the first point of each sample block: the points 0 and 32. -/
theorem hcond0 : ∀ t : Fin cfg0.N, cond0 (grid0.coords t) ↔ t.val % 32 = 0 :=
  (by decide +kernel : ∀ t : Fin grid0.N, cond0 (grid0.coords t) ↔ t.val % 32 = 0)

/-- Each window's current staging buffer at point `t`, as the pipeline passes it to the body, and its wholeness. -/
abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x1 .f32 := win0_5.stage (cfg0.slots t 5)
abbrev hs5 (t : Fin cfg0.N) : (ms5 t).IsWhole := hstage0_5 ((cfg0.slots t 5).cast nbuf0_5)

/-- One staging buffer of the output window, through which its contents are stated. -/
abbrev VO5 : View sig .tc .vmem S8x1 .f32 := (Memref.whole cc0_stg5_0 : Memref sig .tc .vmem S8x1 .f32).view

end Cert.KernelIdeal.Hand

end
-- ==== Proof.KRunA.lean ====
/-
  The body's run at a point where the output block is reset (both block coordinates zero): on whole staging buffers, the five inputs at any contents and the output at anything, the body runs to the end leaving the inputs as they were and the output buffer with the listed stores written — the zero fill, then the fill plus the block's partial sum.
-/
import proofs.«181403_j43963285241920_2_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer when the reset branch is taken, with the proof that
    the body runs to its continuation from the inputs' buffers at their contents and the output's at anything. -/
noncomputable def kernelRunA (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : cond0 i)
    (x0 : Vec F S8x256 .f32) (x1 : Vec F S8x512 .f32) (x2 : Vec F S8x256 .f32) (x3 : Vec F S8x512 .f32) (x4 : Vec F S256x512 .f32) :
    { L5 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0__ranking_kernel i arg3 harg3 arg4 harg4 arg5 harg5 arg6 harg6 arg7 harg7 arg8 harg8) K } := by
  refine ⟨?_, fun E K => ?run⟩
  case run =>
    simp only [cc0__ranking_kernel_eq_skeleton]; unfold cc0__ranking_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.Hand

end
-- ==== Proof.KRunB.lean ====
/-
  The body's run at a point where the output block is carried (some block coordinate nonzero): on whole staging buffers, the five inputs at any contents and the output at its running contents, the body runs to the end leaving the inputs as they were and the output buffer with its one store written — the running contents plus the block's partial sum.
-/
import proofs.«181403_j43963285241920_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece the body's store leaves in the output's staging buffer when the reset branch is not taken, with the proof
    that the body runs to its continuation from the inputs' buffers at their contents and the output's at its running
    contents `xo`. -/
noncomputable def kernelRunB (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : ¬cond0 i)
    (x0 : Vec F S8x256 .f32) (x1 : Vec F S8x512 .f32) (x2 : Vec F S8x256 .f32) (x3 : Vec F S8x512 .f32) (x4 : Vec F S256x512 .f32) (xo : Vec F S8x1 .f32) :
    { L5 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0__ranking_kernel i arg3 harg3 arg4 harg4 arg5 harg5 arg6 harg6 arg7 harg7 arg8 harg8) K } := by
  refine ⟨?_, fun E K => ?run⟩
  case run =>
    simp only [cc0__ranking_kernel_eq_skeleton]; unfold cc0__ranking_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.Hand

end
-- ==== Proof.KDats.lean ====
/-
  The pipeline's proof data for the ranking kernel, and the body obligation.

  What the output block's staging buffer holds after the body at point `t` is defined by recursion on the point: at the
  first point of a sample block (`t % 32 = 0`) the reset run's stores over the point's five input blocks; at any other
  point the carrying run's store over the input blocks and what the point before left (the buffer is written back only
  at the last point of a sample block, `t % 32 = 31`, so between two points of one sample block it is kept). The scores
  array and the labels array are each read through two windows (a row-block window and a column-block window): each of
  the two holds half of the array's share.
-/
import proofs.«181403_j43963285241920_2_alg».proof.Proof.KRunB
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s unscoped buffers at launch, and after the host operations before the region. -/
abbrev V0 (c : Dev nD) : Valuation τ sig (Elt F) := fun b => m (c, b)
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a run leaves in the output block's buffer -/

/-- The reset run's stores cover the block (each is the whole block). -/
theorem coverA (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : cond0 i)
    (x0 : Vec F S8x256 .f32) (x1 : Vec F S8x512 .f32) (x2 : Vec F S8x256 .f32) (x3 : Vec F S8x512 .f32) (x4 : Vec F S256x512 .f32) (y : S8x1.Idx) :
    ∃ pc ∈ (kernelRunA c i arg3 harg3 arg4 harg4 arg5 harg5 arg6 harg6 arg7 harg7 arg8 harg8 hc0 x0 x1 x2 x3 x4).1, y ∈ pc.1.set :=
  View.cover_of_tiledL (kernelRunA c i arg3 harg3 arg4 harg4 arg5 harg5 arg6 harg6 arg7 harg7 arg8 harg8 hc0 x0 x1 x2 x3 x4).1 S8x1.size (by sl_kernel_rfl) y

/-- What the reset run leaves: its stores read back. -/
def outA (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : cond0 i)
    (x0 : Vec F S8x256 .f32) (x1 : Vec F S8x512 .f32) (x2 : Vec F S8x256 .f32) (x3 : Vec F S8x512 .f32) (x4 : Vec F S256x512 .f32) : Vec F S8x1 .f32 :=
  VO5.read (Elt F) (VO5.writes (Elt F) VO5.junk (kernelRunA c i arg3 harg3 arg4 harg4 arg5 harg5 arg6 harg6 arg7 harg7 arg8 harg8 hc0 x0 x1 x2 x3 x4).1)

/-- The carrying run's store covers the block. -/
theorem coverB (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : ¬cond0 i)
    (x0 : Vec F S8x256 .f32) (x1 : Vec F S8x512 .f32) (x2 : Vec F S8x256 .f32) (x3 : Vec F S8x512 .f32) (x4 : Vec F S256x512 .f32) (xo : Vec F S8x1 .f32) (y : S8x1.Idx) :
    ∃ pc ∈ (kernelRunB c i arg3 harg3 arg4 harg4 arg5 harg5 arg6 harg6 arg7 harg7 arg8 harg8 hc0 x0 x1 x2 x3 x4 xo).1, y ∈ pc.1.set :=
  View.cover_of_tiledL (kernelRunB c i arg3 harg3 arg4 harg4 arg5 harg5 arg6 harg6 arg7 harg7 arg8 harg8 hc0 x0 x1 x2 x3 x4 xo).1 S8x1.size (by sl_kernel_rfl) y

/-- What the carrying run leaves: its store read back. -/
def outB (c : Dev nD) (i : grid0.Coords) (arg3 : Memref sig .tc .vmem S8x256 .f32) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S8x1 .f32) (harg8 : arg8.IsWhole) (hc0 : ¬cond0 i)
    (x0 : Vec F S8x256 .f32) (x1 : Vec F S8x512 .f32) (x2 : Vec F S8x256 .f32) (x3 : Vec F S8x512 .f32) (x4 : Vec F S256x512 .f32) (xo : Vec F S8x1 .f32) : Vec F S8x1 .f32 :=
  VO5.read (Elt F) (VO5.writes (Elt F) VO5.junk (kernelRunB c i arg3 harg3 arg4 harg4 arg5 harg5 arg6 harg6 arg7 harg7 arg8 harg8 hc0 x0 x1 x2 x3 x4 xo).1)

/-! ## The accumulation, point by point -/

/-- What the output block's staging buffer holds after the body at position `n`. -/
def outsAt (c : Dev nD) : (n : ℕ) → n < cfg0.N → Vec F S8x1 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 32 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- At a point where the block is reset: the reset run's contents. -/
theorem outsAt_A (c : Dev nD) (t : Fin cfg0.N) (h0 : t.val % 32 = 0) :
    outsAt m c t.val t.isLt = outA c (grid0.coords t) (ms0 t) (hs0 t) (ms1 t) (hs1 t) (ms2 t) (hs2 t) (ms3 t) (hs3 t) (ms4 t) (hs4 t) (ms5 t) (hs5 t) ((hcond0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- At a point where the block is carried: the carrying run's contents over what the point before left. -/
theorem outsAt_B (c : Dev nD) (t : Fin cfg0.N) (h0 : ¬t.val % 32 = 0) :
    outsAt m c t.val t.isLt = outB c (grid0.coords t) (ms0 t) (hs0 t) (ms1 t) (hs1 t) (ms2 t) (hs2 t) (ms3 t) (hs3 t) (ms4 t) (hs4 t) (ms5 t) (hs5 t) (fun h => h0 ((hcond0 t).mp h)) (iblk m c 0 t) (iblk m c 1 t) (iblk m c 2 t) (iblk m c 3 t) (iblk m c 4 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its block and
    the output's at `outsAt`; the invariant the scoped buffers no window stages; nothing owed; of the scores array and of
    the labels array the row-block window holds the left half of the share and the column-block window the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = (outsAt m c t.val t.isLt) := by dsimp only [dats]

/-- Each input's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after_in4]; unfold Dat.blockOf iblk; rw [A_eq]; try rfl) t d).trans
    (by unfold Dat.fetched Dat.blockOf iblk; rw [A_eq]; try rfl)

/-- At a point where the block is carried the output's buffer holds what the body left at the point before: the point
    is not the first, and the buffer was not written back between. -/
theorem before_out_B (c : Dev nD) (t : Fin cfg0.N) (h0 : ¬t.val % 32 = 0) (d) :
    (dats m 0 c).before 5 t d = (outsAt m c (t.val - 1) (Nat.lt_of_le_of_lt (Nat.sub_le _ _) t.isLt)) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the closed form says whether the point resets the
    block or carries it, and a carried block holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  have hN : t.val < 64 := lt_of_lt_of_eq t.isLt (show cfg0.N = 64 from N_0)
  by_cases h0 : t.val % 32 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ ((hcond0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _)
  · rw [outsAt_B m c t h0]
    simp only [before_out_B m c t h0]
    unfold outB
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (fun h => h0 ((hcond0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.SharedArrays.lean ====
/-
  The arrays behind the six windows of the pipeline, as points-tos.

  Windows 0 and 1 read one array (main_v5), windows 2 and 3 read one array (main_v6), window 4 reads main_v17 and
  window 5, the output, is main_v18.  The distinct arrays behind the windows are therefore four, and the separating
  conjunction of their full-share points-tos is a chain of four.  An array that two windows read is held by each of
  them at one half of the full share: the full share is the composition of its left and right halves, so a
  full-share points-to is the separating conjunction of the two half-share points-tos, and conversely.
-/
import proofs.«181403_j43963285241920_2_alg».proof.Proof.Gen.KernelIdeal.Launch
import Idealize.ShloMosaic.Lib.Pipeline.Kit
import Idealize.ShloMosaic.Rules.PointsTo

noncomputable section

namespace Cert.KernelIdeal.Shared

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The distinct arrays behind the six windows are four. -/
theorem arrRefs_eq :
    Finset.univ.image (Pipeline.arrRef spec0) = [main_v5, main_v6, main_v17, main_v18].toFinset := by decide

/-- The distinct arrays behind the windows, each whole at the full share: a chain of four points-tos. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_v6) ↦{fullShare} V main_v6) ∗ (((c : Thread nD τ).loc main_v17) ↦{fullShare} V main_v17) ∗ (((c : Thread nD τ).loc main_v18) ↦{fullShare} V main_v18)) := by
  unfold Pipeline.arrBufs
  exact bigSep_eq_bigSepL_of_eq [main_v5, main_v6, main_v17, main_v18] arrRefs_eq (by decide) _

/-- The chain of four, with the share of each array that two windows read split between them: six conjuncts in
    window order, each direction an entailment. -/
theorem split_windows (c : Dev nD) (V : (b : Ref sig .tc) → Buf (Elt F) ((c : Thread nD τ).loc b)) :
    (iprop((((c : Thread nD τ).loc main_v5) ↦{fullShare} V main_v5) ∗ (((c : Thread nD τ).loc main_v6) ↦{fullShare} V main_v6) ∗ (((c : Thread nD τ).loc main_v17) ↦{fullShare} V main_v17) ∗ (((c : Thread nD τ).loc main_v18) ↦{fullShare} V main_v18)) : sProp 𝕄)
      ⊣⊢ iprop((((c : Thread nD τ).loc main_v5) ↦{fullShare.left} V main_v5) ∗ (((c : Thread nD τ).loc main_v5) ↦{fullShare.right} V main_v5) ∗ (((c : Thread nD τ).loc main_v6) ↦{fullShare.left} V main_v6) ∗ (((c : Thread nD τ).loc main_v6) ↦{fullShare.right} V main_v6) ∗ (((c : Thread nD τ).loc main_v17) ↦{fullShare} V main_v17) ∗ (((c : Thread nD τ).loc main_v18) ↦{fullShare} V main_v18)) :=
  (Laws.sep_congr (pointsTo_share (PosShare.mem_left_op_right fullShare))
      (Laws.sep_congr_left (pointsTo_share (PosShare.mem_left_op_right fullShare)))).trans
    (Laws.sep_assoc.trans (Laws.sep_congr_right (Laws.sep_congr_right Laws.sep_assoc)))

/-- The same as an equation of propositions. -/
theorem split_windows_eq (c : Dev nD) (V : (b : Ref sig .tc) → Buf (Elt F) ((c : Thread nD τ).loc b)) :
    (iprop((((c : Thread nD τ).loc main_v5) ↦{fullShare} V main_v5) ∗ (((c : Thread nD τ).loc main_v6) ↦{fullShare} V main_v6) ∗ (((c : Thread nD τ).loc main_v17) ↦{fullShare} V main_v17) ∗ (((c : Thread nD τ).loc main_v18) ↦{fullShare} V main_v18)) : sProp 𝕄)
      = iprop((((c : Thread nD τ).loc main_v5) ↦{fullShare.left} V main_v5) ∗ (((c : Thread nD τ).loc main_v5) ↦{fullShare.right} V main_v5) ∗ (((c : Thread nD τ).loc main_v6) ↦{fullShare.left} V main_v6) ∗ (((c : Thread nD τ).loc main_v6) ↦{fullShare.right} V main_v6) ∗ (((c : Thread nD τ).loc main_v17) ↦{fullShare} V main_v17) ∗ (((c : Thread nD τ).loc main_v18) ↦{fullShare} V main_v18)) :=
  equiv_iff.mp ⟨(split_windows c V).1, (split_windows c V).2⟩

/-- The arrays the launch hands over, per window: the two steps together. -/
theorem arrBufs_windows (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare.left} V main_v5) ∗ (((c : Thread nD τ).loc main_v5) ↦{fullShare.right} V main_v5) ∗ (((c : Thread nD τ).loc main_v6) ↦{fullShare.left} V main_v6) ∗ (((c : Thread nD τ).loc main_v6) ↦{fullShare.right} V main_v6) ∗ (((c : Thread nD τ).loc main_v17) ↦{fullShare} V main_v17) ∗ (((c : Thread nD τ).loc main_v18) ↦{fullShare} V main_v18)) :=
  (arrBufs_chain c V).trans (split_windows_eq c V)

end Cert.KernelIdeal.Shared

end
-- ==== Proof.KLaunch.lean ====
/-
  The run of @main: twenty host operations, the kernel region, four host operations.

  Between two items a core holds every unscoped buffer whole at a valuation: the launch contents, then the fold of the
  first host operations over them, then the same with the output array replaced by what the region wrote back, then the
  fold of the last host operations over that. The region is entered by splitting the scores array's and the labels
  array's buffers in two halves each (one half per window that reads the array) and left by joining them again: an input
  array is never written, so both halves come back at the entry contents. Every weakly fair execution therefore
  terminates with each buffer at the last valuation.
-/
import proofs.«181403_j43963285241920_2_alg».proof.Proof.KDats
import proofs.«181403_j43963285241920_2_alg».proof.Proof.SharedArrays
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- What the region leaves in the output array. -/
abbrev outFinal (c : Dev nD) : Buf (Elt F) ((c : Thread nD τ).loc main_v18) := (dats m 0 c).arrAt 5 cfg0.N

/-- Core `c`'s unscoped buffers after the region, and after the host operations that follow it. -/
abbrev V2 (c : Dev nD) : Valuation τ sig (Elt F) := Function.update (V1 m c) main_v18 (outFinal m c)
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The references the host operations write. -/
abbrev hostOps0_W : List (Ref sig .tc) := [main_v0, main_v1, main_cst, main_v2, main_v3, main_cst_0, main_v4, main_v5, main_v6, main_v7, main_v8, main_v9, main_v10, main_v11, main_v12, main_v13, main_v14, main_v15, main_v16, main_v17]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, Finset.singleton_subset_iff, List.mem_toFinset]; (repeat' constructor) <;> exact List.mem_map_of_mem (by decide))
abbrev hostOps1_W : List (Ref sig .tc) := [main_cst_1, main_v19, main_cst_2, main_v20]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, Finset.singleton_subset_iff, List.mem_toFinset]; (repeat' constructor) <;> exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v18] : List (Ref sig .tc))) : V2 m c r = V1 m c r := by
  simp only [V2, Function.update_of_ne (StableHlo.devRef_ne_of_ne (List.ne_of_not_mem_cons h) : (Proc.devRef .tc r : DevRef τ sig) ≠ Proc.devRef .tc main_v18)]
theorem V3_of (c : Dev nD) (r : Ref sig .tc) (h : r ∉ hostOps1_W) : V3 m c r = V2 m c r :=
  StableHlo.after_of_writes_sub hostOps1 _ hostOps1_writes h

/-- No item writes an argument array. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_main_arg2 (c : Dev nD) : V3 m c main_arg2 = m ((c : Thread nD τ).loc main_arg2) :=
  (V3_of m c main_arg2 (by decide)).trans <| (V2_of m c main_arg2 (by decide)).trans <| (V1_of m c main_arg2 (by decide)).trans rfl

/-! ## The items as segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- The host operations before the region, over the unscoped buffers from the launch contents. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The host operations after the region, over the unscoped buffers as the region left them. -/
def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-! ## The arrays, window by window -/

/-- The pipeline's arrays as six points-to facts in window order: the scores array and the labels array at half shares
    twice, the table and the output whole. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_v5) ↦{fullShare.left} Fa 0) ∗ (((c : Thread nD τ).loc main_v5) ↦{fullShare.right} Fa 1)
          ∗ (((c : Thread nD τ).loc main_v6) ↦{fullShare.left} Fa 2) ∗ (((c : Thread nD τ).loc main_v6) ↦{fullShare.right} Fa 3)
          ∗ (((c : Thread nD τ).loc main_v17) ↦{fullShare} Fa 4) ∗ (((c : Thread nD τ).loc main_v18) ↦{fullShare} Fa 5)) := by
  unfold Dat.arrays
  have hw : ∀ w : Fin cfg0.W, ((cfg0.win w).arr.view.loc (c : Thread nD τ) ↦[(cfg0.win w).arr.view.set]{(dats m 0 c).share w} Fa w : sProp 𝕄)
      = (((c : Thread nD τ).loc (Pipeline.arrRef spec0 w)) ↦{(dats m 0 c).share w} Fa w) := fun w => by
    rw [(arr_whole0 w).set_eq_univ]
  rw [bigSep_congr (fun w _ => hw w), bigSep_W0]
  rfl

/-- At entry every array is at the region-entry contents. -/
theorem arrAt_zero (c : Dev nD) (w : Fin cfg0.W) : (dats m 0 c).arrAt w 0 = V m c (Pipeline.arrRef spec0 w) := by
  show (dats m 0 c).A w = _
  dsimp only [dats]

/-- ENTRY: the distinct buffers behind the arrays, each whole at the region-entry contents, are the pipeline's arrays
    at entry — the scores array and the labels array each dealt in two halves. -/
theorem entry_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Shared.arrBufs_windows, arrays_chain]
  simp only [arrAt_zero]
  exact .rfl

/-- After the region the valuation differs from the one before it at the output array only. -/
theorem rest_V2 (c : Dev nD) :
    (Pipeline.unscopedRest (Ix := Unit) (Name := ℕ) (U := UR sig nD τ) (Lvl := ℕ) spec0 c (fun b => V2 m c b) : sProp 𝕄)
      = Pipeline.unscopedRest (Ix := Unit) (Name := ℕ) (U := UR sig nD τ) (Lvl := ℕ) spec0 c (V m c) := by
  unfold Pipeline.unscopedRest
  refine bigSep_congr fun b hb => ?_
  have hne : b ≠ main_v18 := fun e => (Finset.mem_sdiff.mp hb).2 (e ▸ Finset.mem_image.mpr ⟨5, Finset.mem_univ _, rfl⟩)
  dsimp only
  rw [V2_of m c b (by simpa using hne)]

/-- EXIT: the pipeline's arrays after the last point — every input array at its entry contents (an input array is never
    written), its two halves joined again, the output array at what the write-backs left — are the distinct buffers
    behind the arrays at the valuation after the region. -/
theorem exit_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V2 m c b) := by
  rw [Shared.arrBufs_windows, arrays_chain]
  simp only [(dats m 0 c).arrAt_in 0 rfl, (dats m 0 c).arrAt_in 1 rfl, (dats m 0 c).arrAt_in 2 rfl, (dats m 0 c).arrAt_in 3 rfl,
    (dats m 0 c).arrAt_in 4 rfl, A_eq, V2_of m c main_v5 (by decide), V2_of m c main_v6 (by decide), V2_of m c main_v17 (by decide)]
  rw [show V2 m c main_v18 = outFinal m c from Function.update_self ..]

-- an entailment stated over `cfgs p` at the pinned configuration unifies only when unification may unfold plain
-- definitions in a metavariable's type
set_option backward.isDefEq.respectTransparency.types false in
/-- THE REGION: the layout facts, the body obligation, and the protocol around it — entered from every unscoped buffer at
    the valuation before it, the arrays' buffers into the pipeline (split per window), the others bypassing; left with
    every unscoped buffer at the valuation after it. -/
def reg0 : RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X _ := iprop(emp)
  Y _ := iprop(emp)
  Z c := Pipeline.unscopedRest (Ix := Unit) (Name := ℕ) (U := UR sig nD τ) (Lvl := ℕ) spec0 c (V m c)
  hentry c := by
    rw [← Pipeline.unscopedBufs_held (Ix := Unit) (Name := ℕ) (U := UR sig nD τ) (Lvl := ℕ) c (V1 m c),
      Pipeline.unscopedBufs_split₀ cfgs 0 winFacts₀0.arr_unscoped c]
    iintro ⟨⟨⟨Ha, Hrest⟩, HO⟩, -, -⟩
    imodintro
    isplitl [Ha]; · iapply (entry_arrays m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [show (dats m 0 c).Φ (Fin.last _) = Pipeline.scopedRest (Ix := Unit) (Name := ℕ) (U := UR sig nD τ) (Lvl := ℕ) (Val := Elt F) spec0 c from rfl,
      Pipeline.ownSems0_none]
    iintro Hr
    isplitr; · iempintro
    isplitr; · iempintro
    iexact Hr
  hexit c := by
    rw [← Pipeline.unscopedBufs_held (Ix := Unit) (Name := ℕ) (U := UR sig nD τ) (Lvl := ℕ) c (V2 m c),
      Pipeline.unscopedBufs_split₀ cfgs 0 winFacts₀0.arr_unscoped c, rest_V2]
    iintro ⟨Ha, HO, -, HZ⟩
    imodintro
    isplitr [HO]
    · isplitl [Ha]; · iapply (exit_arrays m c); iexact Ha
      iexact HZ
    · unfold Pipeline.Dat.owesAt Pipeline.owesWithin
      icases HO with ⟨%W, -, HO⟩; iexists W; iexact HO

/-- @main as the list of its three items. -/
abbrev segs : List (Seg (pcfgs (F := F)) adm (dats m) () defs₀ 𝒱₀ L lv) := [.host (seg0 m), .region (reg0 m), .host (seg2 m)]

/-- What every final state satisfies: the result buffer and the three arguments at the last valuation, the arguments'
    being their launch contents. -/
def QC : PUnit × MemSt nD τ sig (Elt F) → Prop := fun r => ∀ c : Dev nD,
  r.2.mem ((c : Thread nD τ).loc main_v20) = V3 m c main_v20
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

-- the kit's implicit arguments are found by unifying its conclusion with this one, which takes unfolding plain
-- definitions in a metavariable's type
set_option backward.isDefEq.respectTransparency.types false in
/-- At the compiled mesh, for any float values, from any memory with zero counters: every weakly fair execution of
    @main on the TensorCores terminates, nothing faulting, and every final state has the result at the last valuation
    and the arguments unchanged. -/
theorem run_main : θ_run defs (onTc (τ := τ) (main (F := F))) ⟨m, fun _ => 0, ρ⟩ (QC m) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists ∅; iexact HO)
    (QY := fun c s => s.mem ((c : Thread nD τ).loc main_v20) = V3 m c main_v20
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v20) (Finset.mem_filter.mpr ⟨StableHlo.devRef_mem_tcRefs main_v20, by decide⟩),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c),
          (h (Proc.devRef .tc main_arg2) (Finset.mem_filter.mpr ⟨StableHlo.devRef_mem_tcRefs main_arg2, by decide⟩)).trans (V3_main_arg2 m c)⟩
      · iexact HSI)
    (hQ := fun _ h => h)

/-- The frame: the program runs, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.KTail.lean ====
/-
  The host operations after the region, at the exact instance: the result is the sum of the output array's sixteen
  rows, starting from zero, divided by the literal sixteen.
-/
import proofs.«181403_j43963285241920_2_alg».proof.Proof.KLaunch
import Idealize.ShloMosaic.Lib.StableHlo.Run
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The result buffer after the last host operations, as those operations' term of the output array. -/
theorem result_stage (c : Dev nD) : V3 (F := Ideal) m c main_v20
    = Host.divf (F := Ideal) (Host.reduceAdd (F := Ideal) (outFinal (F := Ideal) m c) (constant (F := Ideal) S_ .f32 0x00000000#32) reducesTo_S16x1_S_d0_1 h_S_)
        (constant (F := Ideal) S_ .f32 0x41800000#32) := by
  show StableHlo.after hostOps1 (V2 (F := Ideal) m c) (Proc.devRef .tc main_v20) = _
  after_results
  rw [show V2 (F := Ideal) m c main_v18 = outFinal (F := Ideal) m c from Function.update_self ..]

/-- Row `b` of the output array after the region, as an extended real. -/
def outRow (c : Dev nD) (b : Fin 16) : EReal := outFinal (F := Ideal) m c (ValueIdx.ix2 b 0)

/-- Read at its one index: zero plus the sum of the sixteen rows, divided by the literal sixteen. -/
theorem result_value (c : Dev nD) :
    V3 (F := Ideal) m c main_v20
      = fun _ => Ideal.div (0 + ∑ b : Fin 16, outRow m c b) (Ideal.ofBits .f32 0x41800000#32) := by
  rw [result_stage]
  unfold outRow
  generalize outFinal (F := Ideal) m c = y0
  funext k
  show FloatOps.hostDivf (F := Ideal) (φ := .f32) (Host.reduceAdd (F := Ideal) y0 (constant (F := Ideal) S_ .f32 0x00000000#32) reducesTo_S16x1_S_d0_1 h_S_ k)
      (Ideal.ofBits .f32 0x41800000#32) = _
  rw [Ideal.hostDivf_def]
  refine congrArg (fun t => Ideal.div t (Ideal.ofBits .f32 0x41800000#32)) ?_
  simp only [Host.reduceAdd, Ideal.hostReduceAdd_def]
  rw [Ideal.hostReduceAdd_total reducesTo_S16x1_S_d0_1 (fun b => b.elim0) y0 _ k]
  show Ideal.ofBits .f32 0x00000000#32 + _ = _
  rw [Ideal.ofBits_zero_f32, ValueIdx.sum_idx2]
  refine congrArg (fun t => (0 : EReal) + t) (Finset.sum_congr rfl fun b _ => ?_)
  rw [Fin.sum_univ_one]

end Cert.KernelIdeal.Hand

end
-- ==== Proof.KArrays.lean ====
/-
  The three arrays the region reads, at the exact instance, as functions of coordinates: the scores `scores b i`
  (the logistic of the input, computed by the host operations before the region), the label weights `labels b i`
  (the integer labels as numbers) and the frequency table `table i j`.
-/
import proofs.«181403_j43963285241920_2_alg».proof.Proof.KDats
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The scores, the label weights and the table as the region finds them on core `c`. -/
def scores (c : Dev nD) : Fin 16 → Fin 2048 → EReal := fun b i => V (F := Ideal) m c main_v5 (ValueIdx.ix2 b i)
def labels (c : Dev nD) : Fin 16 → Fin 2048 → EReal := fun b i => V (F := Ideal) m c main_v6 (ValueIdx.ix2 b i)
def table (c : Dev nD) : Fin 2048 → Fin 2048 → EReal := fun i j => V (F := Ideal) m c main_v17 (ValueIdx.ix2 i j)

end Cert.KernelIdeal.Hand

end
-- ==== Proof.PairLoss.lean ====
/-
  The pairwise ranking loss both programs compute, as plain functions on the extended reals.

  For scores `x b i` (one row per sample `b`), label weights `p b i`, a table `n i j` and a scale `c`, the summand at
  `(b, i, j)` is  max (n i j · (x b i − x b j)) 0 · (p b i · p b j)  +  c · max (0 − (x b i − x b j)) 0 · (p b i · (1 − p b j)),
  and the loss is its sum over every `b`, `i`, `j`.  The blocked form cuts the `i` range into 8 blocks of 256 and the `j` range
  into 4 blocks of 512 and factors `p b i` out of the sum over `j` inside a block.
-/
import Mathlib.Data.EReal.Inv
import Mathlib.Algebra.BigOperators.Group.Finset.Basic

noncomputable section

namespace Cert.PairLoss

variable (c : EReal) (x p : Fin 16 → Fin 2048 → EReal) (n : Fin 2048 → Fin 2048 → EReal)

/-- The summand at sample `b` and the ordered pair `(i, j)`. -/
def term (b : Fin 16) (i j : Fin 2048) : EReal :=
  max (n i j * (x b i - x b j)) 0 * (p b i * p b j) + c * max (0 - (x b i - x b j)) 0 * (p b i * (1 - p b j))

/-- The loss before the division by the batch size: the sum of every summand. -/
def total : EReal := ∑ b : Fin 16, ∑ i : Fin 2048, ∑ j : Fin 2048, term c x p n b i j

/-- Row `i` of row block `I` (blocks of 256), and column `j` of column block `J` (blocks of 512). -/
def rowAt (I : Fin 8) (i : Fin 256) : Fin 2048 := ⟨I.val * 256 + i.val, by omega⟩
def colAt (J : Fin 4) (j : Fin 512) : Fin 2048 := ⟨J.val * 512 + j.val, by omega⟩

/-- One block's contribution to sample `b`, with `p b i` factored out of the two sums over the block's columns. -/
def part (b : Fin 16) (I : Fin 8) (J : Fin 4) : EReal :=
  ∑ i : Fin 256, p b (rowAt I i) *
    ((∑ j : Fin 512, max (n (rowAt I i) (colAt J j) * (x b (rowAt I i) - x b (colAt J j))) 0 * p b (colAt J j))
      + c * ∑ j : Fin 512, max (0 - (x b (rowAt I i) - x b (colAt J j))) 0 * (1 - p b (colAt J j)))

end Cert.PairLoss

end
-- ==== Proof.RefValue.lean ====
/-
  The reference program's value, read as the pairwise ranking loss.

  The reference computes three arrays from its arguments — the sigmoid scores, the labels converted to numbers, and
  the table of normalised frequency differences — spreads them over the index set of all triples (sample, i, j),
  forms one summand per triple, adds every summand to a zero start value and divides by the literal sixteen. At the
  exact extended-real instance each summand is the summand of the loss at that triple, so the sum over the triples
  is the loss's triple sum. The start value of the sum and the final division are kept as the program has them.
-/
import proofs.«181403_j43963285241920_2_alg».proof.Proof.Gen.ReferenceIdeal.Read
import proofs.«181403_j43963285241920_2_alg».proof.Proof.PairLoss
import Idealize.ShloMosaic.Lib.ValueIdx
import Idealize.ShloMosaic.Lib.IdealHost

noncomputable section

open scoped BigOperators

namespace Cert.RefValue

open Cert.ReferenceIdeal Cert.ReferenceIdeal.Gen Cert.ReferenceIdeal.Read Idealize.ShloMosaic Idealize.ShloMosaic.ValueIdx

/-! ## The three arrays the summand is built from -/

/-- The sigmoid scores, by sample and position. -/
def X (a0 : (⟨S16x2048, .f32⟩ : BufTy).Contents (Elt Ideal)) : Fin 16 → Fin 2048 → EReal :=
  fun b i => val_main_v5 (F := Ideal) a0 (ix2 b i)

/-- The labels as numbers, by sample and position. -/
def P (a1 : (⟨S16x2048, .i32⟩ : BufTy).Contents (Elt Ideal)) : Fin 16 → Fin 2048 → EReal :=
  fun b i => val_main_v6 (F := Ideal) a1 (ix2 b i)

/-- The table of normalised frequency differences, by ordered pair of positions. -/
def N (a2 : (⟨S2048, .f32⟩ : BufTy).Contents (Elt Ideal)) : Fin 2048 → Fin 2048 → EReal :=
  fun i j => val_main_v19 (F := Ideal) a2 (ix2 i j)

/-- The scale of the second part of the summand: the word the program writes for one tenth, never evaluated. -/
local notation "𝕔" => (Ideal.ofBits FTy.f32 0x3DCCCCCD#32 : EReal)

/-! ## The three arrays as compositions of host operations of the arguments -/

theorem X_stage (a0 : (⟨S16x2048, .f32⟩ : BufTy).Contents (Elt Ideal)) :
    val_main_v5 (F := Ideal) a0
      = Host.divf (F := Ideal) (broadcastInDim S16x2048 ![] bcast_S_S16x2048 (constant (F := Ideal) S_ .f32 0x3F800000#32))
          (addf (F := Ideal) (broadcastInDim S16x2048 ![] bcast_S_S16x2048 (constant (F := Ideal) S_ .f32 0x3F800000#32))
            (Host.exp (F := Ideal) (Host.negf (F := Ideal) a0))) := rfl

theorem P_stage (a1 : (⟨S16x2048, .i32⟩ : BufTy).Contents (Elt Ideal)) :
    val_main_v6 (F := Ideal) a1 = sitofp (F := Ideal) .f32 a1 := rfl

theorem N_stage (a2 : (⟨S2048, .f32⟩ : BufTy).Contents (Elt Ideal)) :
    val_main_v19 (F := Ideal) a2
      = Host.divf (F := Ideal) (φ := .f32)
          (subf (F := Ideal) (broadcastInDim S2048x2048 ![0, 1] bcast_S2048x1_S2048x2048_0_1 (broadcastInDim S2048x1 ![0] bcast_S2048_S2048x1_0 a2))
            (broadcastInDim S2048x2048 ![0, 1] bcast_S1x2048_S2048x2048_0_1 (broadcastInDim S1x2048 ![1] bcast_S2048_S1x2048_1 a2)))
          (addf (F := Ideal) (broadcastInDim S2048x2048 ![0, 1] bcast_S2048x1_S2048x2048_0_1 (broadcastInDim S2048x1 ![0] bcast_S2048_S2048x1_0 a2))
            (broadcastInDim S2048x2048 ![0, 1] bcast_S1x2048_S2048x2048_0_1 (broadcastInDim S1x2048 ![1] bcast_S2048_S1x2048_1 a2))) := rfl

/-! ## Where the spread arrays read: the composed index maps at a triple -/

variable (b : Fin 16) (i j : Fin 2048)

/-- A row-wise spread of a per-sample array reads position (b, i) at the triple (b, i, j). -/
theorem idx_row : idx_main_v20 (idx_main_v22 (ix3 b i j)) = ix2 b i := by
  funext a; match a with | ⟨0, _⟩ => rfl | ⟨1, _⟩ => rfl
/-- A column-wise spread of a per-sample array reads position (b, j) at the triple (b, i, j). -/
theorem idx_col : idx_main_v21 (idx_main_v23 (ix3 b i j)) = ix2 b j := by
  funext a; match a with | ⟨0, _⟩ => rfl | ⟨1, _⟩ => rfl
/-- The table spread over the samples reads entry (i, j) at the triple (b, i, j). -/
theorem idx_tab : idx_main_v35 (idx_main_v36 (ix3 b i j)) = ix2 i j := by
  funext a; match a with | ⟨0, _⟩ => rfl | ⟨1, _⟩ => rfl

/-! ## The program's literals as numbers -/

/-- The spread literal one reads one everywhere. -/
theorem v7_at (k : S16x2048.Idx) : val_main_v7 (F := Ideal) k = 1 := by
  rw [val_main_v7_apply, val_main_cst_1_apply, Ideal.ofBits_def, Ideal.ofBits_one_f32]
/-- The spread literal zero of the second part's difference reads zero everywhere. -/
theorem v40_at (k : S16x2048x2048.Idx) : val_main_v40 (F := Ideal) k = 0 := by
  rw [val_main_v40_apply, val_main_cst_2_apply, Ideal.ofBits_def, Ideal.ofBits_zero_f32]
/-- The first clamp's lower bound reads zero everywhere. -/
theorem call0_at (k : S16x2048x2048.Idx) : val_main_call0_v0 (F := Ideal) k = 0 := by
  rw [val_main_call0_v0_apply, val_main_call0_cst_apply, Ideal.ofBits_def, Ideal.ofBits_zero_f32]
/-- The second clamp's lower bound reads zero everywhere. -/
theorem call1_at (k : S16x2048x2048.Idx) : val_main_call1_v0 (F := Ideal) k = 0 := by
  rw [val_main_call1_v0_apply, val_main_call1_cst_apply, Ideal.ofBits_def, Ideal.ofBits_zero_f32]
/-- The spread scale reads the scale's word everywhere. -/
theorem v43_at (k : S16x2048x2048.Idx) : val_main_v43 (F := Ideal) k = 𝕔 := by
  rw [val_main_v43_apply, val_main_cst_3_apply, Ideal.ofBits_def]

/-! ## The factors of the summand at a triple -/

/-- The table factor. -/
theorem v36_at (a2 : (⟨S2048, .f32⟩ : BufTy).Contents (Elt Ideal)) :
    val_main_v36 (F := Ideal) a2 (ix3 b i j) = N a2 i j := by
  rw [val_main_v36_apply, val_main_v35_apply]
  exact congrArg (val_main_v19 (F := Ideal) a2) (idx_tab b i j)

/-- The difference of the two scores. -/
theorem v24_at (a0 : (⟨S16x2048, .f32⟩ : BufTy).Contents (Elt Ideal)) :
    val_main_v24 (F := Ideal) a0 (ix3 b i j) = X a0 b i - X a0 b j := by
  rw [val_main_v24_apply, val_main_v22_apply, val_main_v20_apply, val_main_v23_apply, val_main_v21_apply]
  exact congrArg₂ (fun u v => val_main_v5 (F := Ideal) a0 u - val_main_v5 (F := Ideal) a0 v) (idx_row b i j) (idx_col b i j)

/-- The weight of a pair of two positives. -/
theorem v29_at (a1 : (⟨S16x2048, .i32⟩ : BufTy).Contents (Elt Ideal)) :
    val_main_v29 (F := Ideal) a1 (ix3 b i j) = P a1 b i * P a1 b j := by
  rw [val_main_v29_apply, val_main_v27_apply, val_main_v25_apply, val_main_v28_apply, val_main_v26_apply]
  exact congrArg₂ (fun u v => val_main_v6 (F := Ideal) a1 u * val_main_v6 (F := Ideal) a1 v) (idx_row b i j) (idx_col b i j)

/-- One minus the label, per sample and position. -/
theorem v8_at (a1 : (⟨S16x2048, .i32⟩ : BufTy).Contents (Elt Ideal)) :
    val_main_v8 (F := Ideal) a1 (ix2 b j) = 1 - P a1 b j := by
  rw [val_main_v8_apply, v7_at]; rfl

/-- The weight of a pair of a positive and a negative. -/
theorem v34_at (a1 : (⟨S16x2048, .i32⟩ : BufTy).Contents (Elt Ideal)) :
    val_main_v34 (F := Ideal) a1 (ix3 b i j) = P a1 b i * (1 - P a1 b j) := by
  rw [val_main_v34_apply, val_main_v32_apply, val_main_v30_apply, val_main_v33_apply, val_main_v31_apply, ← v8_at b j a1]
  exact congrArg₂ (fun u v => val_main_v6 (F := Ideal) a1 u * val_main_v8 (F := Ideal) a1 v) (idx_row b i j) (idx_col b i j)

/-- The summand the reference forms at a triple is the loss's summand there. -/
theorem v46_at (a0 : (⟨S16x2048, .f32⟩ : BufTy).Contents (Elt Ideal)) (a1 : (⟨S16x2048, .i32⟩ : BufTy).Contents (Elt Ideal))
    (a2 : (⟨S2048, .f32⟩ : BufTy).Contents (Elt Ideal)) :
    val_main_v46 (F := Ideal) a0 a1 a2 (ix3 b i j) = PairLoss.term 𝕔 (X a0) (P a1) (N a2) b i j := by
  rw [val_main_v46_apply, val_main_v39_apply, val_main_v38_apply, val_main_v37_apply, val_main_v45_apply,
    val_main_v44_apply, val_main_v42_apply, val_main_v41_apply,
    v36_at, v24_at, v29_at, v34_at, call0_at, call1_at, v40_at, v43_at]
  rfl

/-! ## The sum over the triples as the triple sum -/

/-- A rank-3 index set is the product of its three coordinate ranges … -/
def idxEquiv3 {n0 n1 n2 : Nat} : (⟨3, ![n0, n1, n2]⟩ : Shape).Idx ≃ Fin n0 × Fin n1 × Fin n2 where
  toFun k := (k 0, k 1, k 2)
  invFun p := ix3 p.1 p.2.1 p.2.2
  left_inv k := (eq_ix3 k).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ k, f k = ∑ a : Fin n0, ∑ b : Fin n1, ∑ d : Fin n2, f (ix3 a b d) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The reference's result -/

/-- The sum of every summand, from the program's start value (the word of zero, left as the program writes it). -/
theorem v47_at (a0 : (⟨S16x2048, .f32⟩ : BufTy).Contents (Elt Ideal)) (a1 : (⟨S16x2048, .i32⟩ : BufTy).Contents (Elt Ideal))
    (a2 : (⟨S2048, .f32⟩ : BufTy).Contents (Elt Ideal)) (k : S_.Idx) :
    val_main_v47 (F := Ideal) a0 a1 a2 k
      = Ideal.ofBits .f32 0x00000000#32 + PairLoss.total 𝕔 (X a0) (P a1) (N a2) := by
  rw [val_main_v47_apply, val_main_cst_4_apply, Ideal.ofBits_def, sum_idx3]
  refine congrArg (fun t => Ideal.ofBits .f32 0x00000000#32 + t) ?_
  exact Finset.sum_congr rfl fun b _ => Finset.sum_congr rfl fun i _ => Finset.sum_congr rfl fun j _ =>
    v46_at b i j a0 a1 a2

/-- The reference's result with the start value of the sum left as its word: the loss added to the word of zero, divided
    by the word of sixteen. -/
theorem ref_value_word (a0 : (⟨S16x2048, .f32⟩ : BufTy).Contents (Elt Ideal)) (a1 : (⟨S16x2048, .i32⟩ : BufTy).Contents (Elt Ideal))
    (a2 : (⟨S2048, .f32⟩ : BufTy).Contents (Elt Ideal)) :
    val_main_v48 (F := Ideal) a0 a1 a2
      = fun _ => Ideal.div (Ideal.ofBits .f32 0x00000000#32 + PairLoss.total 𝕔 (X a0) (P a1) (N a2))
          (Ideal.ofBits .f32 0x41800000#32) := by
  funext k
  rw [val_main_v48_apply, v47_at, val_main_cst_5_apply, Ideal.ofBits_def, Ideal.hostDivf_def]

/-- THE REFERENCE'S VALUE: the loss added to zero (the start value of the sum, evaluated), divided by the word of
    sixteen (left as the program writes it). -/
theorem ref_value (a0 : (⟨S16x2048, .f32⟩ : BufTy).Contents (Elt Ideal)) (a1 : (⟨S16x2048, .i32⟩ : BufTy).Contents (Elt Ideal))
    (a2 : (⟨S2048, .f32⟩ : BufTy).Contents (Elt Ideal)) :
    val_main_v48 (F := Ideal) a0 a1 a2
      = fun _ => Ideal.div (0 + PairLoss.total 𝕔 (X a0) (P a1) (N a2)) (Ideal.ofBits .f32 0x41800000#32) := by
  rw [ref_value_word, Ideal.ofBits_zero_f32]

/-- The same, with the division spelled as the host operation of the exact instance. -/
theorem ref_value_host (a0 : (⟨S16x2048, .f32⟩ : BufTy).Contents (Elt Ideal)) (a1 : (⟨S16x2048, .i32⟩ : BufTy).Contents (Elt Ideal))
    (a2 : (⟨S2048, .f32⟩ : BufTy).Contents (Elt Ideal)) :
    val_main_v48 (F := Ideal) a0 a1 a2
      = fun _ => FloatOps.hostDivf (F := Ideal) (φ := .f32) (0 + PairLoss.total 𝕔 (X a0) (P a1) (N a2))
          (FloatOps.ofBits (F := Ideal) .f32 0x41800000#32) :=
  ref_value a0 a1 a2

end Cert.RefValue

end
-- ==== Proof.KStages.lean ====
/-
  The three arrays the region reads are the reference's own: both programs compute the scores, the label weights and the
  frequency table from the arguments by the same host operations, in the same order.
-/
import proofs.«181403_j43963285241920_2_alg».proof.Proof.KArrays
import proofs.«181403_j43963285241920_2_alg».proof.Proof.RefValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The scores the region finds are the logistic of the first argument, as the reference computes it. -/
theorem scores_eq (c : Dev nD) : scores m c = Cert.RefValue.X (m ((c.tc : Thread nD τ).loc main_arg0)) := by
  funext b i
  unfold scores Cert.RefValue.X
  refine congrFun ?_ (ValueIdx.ix2 b i)
  rw [Cert.RefValue.X_stage]
  show StableHlo.after hostOps0 (V0 (F := Ideal) m c) (Proc.devRef .tc main_v5) = _
  after_results

/-- The label weights the region finds are the second argument's integers as numbers. -/
theorem labels_eq (c : Dev nD) : labels m c = Cert.RefValue.P (m ((c.tc : Thread nD τ).loc main_arg1)) := by
  funext b i
  unfold labels Cert.RefValue.P
  refine congrFun ?_ (ValueIdx.ix2 b i)
  rw [Cert.RefValue.P_stage]
  show StableHlo.after hostOps0 (V0 (F := Ideal) m c) (Proc.devRef .tc main_v6) = _
  after_results

/-- The table the region finds is the reference's: the quotient of the frequencies' difference by their sum. -/
theorem table_eq (c : Dev nD) : table m c = Cert.RefValue.N (m ((c.tc : Thread nD τ).loc main_arg2)) := by
  funext i j
  unfold table Cert.RefValue.N
  refine congrFun ?_ (ValueIdx.ix2 i j)
  rw [Cert.RefValue.N_stage]
  show StableHlo.after hostOps0 (V0 (F := Ideal) m c) (Proc.devRef .tc main_v17) = _
  after_results

end Cert.KernelIdeal.Hand

end
-- ==== Proof.KChain.lean ====
/-
  The output block's staging buffer, point by point, as the body's stored value.

  Each run of the body ends with one store of the whole output block: the block's previous contents plus the partial
  sum of the point's input blocks. Where the block is reset the previous contents are the zero fill the same run stored
  first and read back; where it is carried they are what the point before left. So the contents after point `n` are a
  running value `acc n`: the stored value over the zero block at the first point of a sample block, over `acc (n - 1)`
  elsewhere.
-/
import proofs.«181403_j43963285241920_2_alg».proof.Proof.KDats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- The value the body stores into the output block: from the scores of the row block `x0` and of the column block `x1`,
    the labels of the row block `x2` and of the column block `x3`, the table block `x4`, and the block's previous
    contents `xo`. -/
abbrev stored (x0 : Vec F S8x256 .f32) (x1 : Vec F S8x512 .f32) (x2 : Vec F S8x256 .f32) (x3 : Vec F S8x512 .f32) (x4 : Vec F S256x512 .f32) (xo : Vec F S8x1 .f32) : Vec F S8x1 .f32 :=
  k0_pay1 (k0_pay3 x2) (k0_pay6 x0 x1 x3) (k0_pay7 x0 x1 x3 x4) xo

/-- Where the block is carried, the run leaves the stored value over the running contents. -/
theorem outB_eq (c : Dev nD) (i : grid0.Coords) (a3 : Memref sig .tc .vmem S8x256 .f32) (h3 : a3.IsWhole) (a4 : Memref sig .tc .vmem S8x512 .f32) (h4 : a4.IsWhole) (a5 : Memref sig .tc .vmem S8x256 .f32) (h5 : a5.IsWhole) (a6 : Memref sig .tc .vmem S8x512 .f32) (h6 : a6.IsWhole) (a7 : Memref sig .tc .vmem S256x512 .f32) (h7 : a7.IsWhole) (a8 : Memref sig .tc .vmem S8x1 .f32) (h8 : a8.IsWhole) (hc : ¬cond0 i)
    (x0 : Vec F S8x256 .f32) (x1 : Vec F S8x512 .f32) (x2 : Vec F S8x256 .f32) (x3 : Vec F S8x512 .f32) (x4 : Vec F S256x512 .f32) (xo : Vec F S8x1 .f32) :
    outB c i a3 h3 a4 h4 a5 h5 a6 h6 a7 h7 a8 h8 hc x0 x1 x2 x3 x4 xo = stored x0 x1 x2 x3 x4 xo := by
  unfold outB
  rw [View.read_writes_eq_canon _ _ _ (coverB c i a3 h3 a4 h4 a5 h5 a6 h6 a7 h7 a8 h8 hc x0 x1 x2 x3 x4 xo)]
  unfold kernelRunB
  dsimp only
  sl_unfold_words
  rw [View.canon_unit_zero hz]
  simp only [View.readAt_eq_ld, h3.read_unread, h4.read_unread, h5.read_unread, h6.read_unread, h7.read_unread, h8.read_unread,
    View.ld_unit_zero (S := S8x256) hz, View.ld_unit_zero (S := S8x512) hz, View.ld_unit_zero (S := S256x512) hz, View.ld_unit_zero (S := S8x1) hz]

/-- Where the block is reset, the run stores the zero block, reads it back, and leaves the stored value over it. -/
theorem outA_eq (c : Dev nD) (i : grid0.Coords) (a3 : Memref sig .tc .vmem S8x256 .f32) (h3 : a3.IsWhole) (a4 : Memref sig .tc .vmem S8x512 .f32) (h4 : a4.IsWhole) (a5 : Memref sig .tc .vmem S8x256 .f32) (h5 : a5.IsWhole) (a6 : Memref sig .tc .vmem S8x512 .f32) (h6 : a6.IsWhole) (a7 : Memref sig .tc .vmem S256x512 .f32) (h7 : a7.IsWhole) (a8 : Memref sig .tc .vmem S8x1 .f32) (h8 : a8.IsWhole) (hc : cond0 i)
    (x0 : Vec F S8x256 .f32) (x1 : Vec F S8x512 .f32) (x2 : Vec F S8x256 .f32) (x3 : Vec F S8x512 .f32) (x4 : Vec F S256x512 .f32) :
    outA c i a3 h3 a4 h4 a5 h5 a6 h6 a7 h7 a8 h8 hc x0 x1 x2 x3 x4 = stored x0 x1 x2 x3 x4 (k0_pay2 (F := F)) := by
  unfold outA
  rw [View.read_writes_eq_canon _ _ _ (coverA c i a3 h3 a4 h4 a5 h5 a6 h6 a7 h7 a8 h8 hc x0 x1 x2 x3 x4)]
  unfold kernelRunA
  dsimp only
  sl_unfold_words
  rw [View.canon_cons_unit_zero (S := S8x1) hz, View.readCov_unit_zero (S := S8x1) _ hz]
  simp only [View.readAt_eq_ld, h3.read_unread, h4.read_unread, h5.read_unread, h6.read_unread, h7.read_unread,
    View.ld_unit_zero (S := S8x256) hz, View.ld_unit_zero (S := S8x512) hz, View.ld_unit_zero (S := S256x512) hz, View.ld_unit_zero (S := S8x1) hz]

/-- The running contents of the output block after point `n`. -/
def acc (c : Dev nD) : (n : ℕ) → n < cfg0.N → Vec F S8x1 .f32
  | 0, h => stored (iblk m c 0 ⟨0, h⟩) (iblk m c 1 ⟨0, h⟩) (iblk m c 2 ⟨0, h⟩) (iblk m c 3 ⟨0, h⟩) (iblk m c 4 ⟨0, h⟩) (k0_pay2 (F := F))
  | n + 1, h =>
    if (n + 1) % 32 = 0 then stored (iblk m c 0 ⟨n + 1, h⟩) (iblk m c 1 ⟨n + 1, h⟩) (iblk m c 2 ⟨n + 1, h⟩) (iblk m c 3 ⟨n + 1, h⟩) (iblk m c 4 ⟨n + 1, h⟩) (k0_pay2 (F := F))
    else stored (iblk m c 0 ⟨n + 1, h⟩) (iblk m c 1 ⟨n + 1, h⟩) (iblk m c 2 ⟨n + 1, h⟩) (iblk m c 3 ⟨n + 1, h⟩) (iblk m c 4 ⟨n + 1, h⟩) (acc c n (Nat.lt_of_succ_lt h))

/-- What the proof data says the buffer holds after point `n` is that running value: by induction on the point. -/
theorem outsAt_eq (c : Dev nD) : ∀ (n : ℕ) (h : n < cfg0.N), outsAt m c n h = acc m c n h
  | 0, h => (outsAt_A m c ⟨0, h⟩ rfl).trans (outA_eq ..)
  | n + 1, h => by
    by_cases h0 : (n + 1) % 32 = 0
    · rw [outsAt_A m c ⟨n + 1, h⟩ h0, outA_eq]
      show _ = (if (n + 1) % 32 = 0 then _ else _)
      rw [if_pos h0]
    · rw [outsAt_B m c ⟨n + 1, h⟩ h0, outB_eq]
      show _ = (if (n + 1) % 32 = 0 then _ else _)
      rw [if_neg h0]
      show stored _ _ _ _ _ (outsAt m c n _) = stored _ _ _ _ _ (acc m c n _)
      rw [outsAt_eq c n]

end Cert.KernelIdeal.Hand

end
-- ==== Proof.KBlocks.lean ====
/-
  The kernel's five input windows, read at coordinates.

  The grid has 2 × 8 × 4 points; point t has the coordinates g0 = t / 32 (the sample block), g1 = (t / 4) % 8 (the row
  block) and g2 = t % 4 (the column block), the last axis moving fastest. A window's block at a point starts, on each
  axis, at its block index times the block's extent, so entry (r, i) of a block of 8 × 256 with block index (g0, g1) is
  entry (8 g0 + r, 256 g1 + i) of the array, and likewise for the blocks of 8 × 512 at (g0, g2) and of 256 × 512 at
  (g1, g2). The block indices as functions of the point are decided once over the 64 points.
-/
import proofs.«181403_j43963285241920_2_alg».proof.Proof.KDats
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

variable (m : (ℓ : Loc nD τ sig) → Buf (Elt F) ℓ)

/-! ## The block indices as functions of the point -/

/-- The row-block window of the scores sits at block (t / 32, (t / 4) % 8). -/
theorem idx_facts0 : ∀ t : Fin cfg0.N, win0_0.index t (0 : Fin 2) = t.val / 32 ∧ win0_0.index t (1 : Fin 2) = (t.val / 4) % 8 :=
  (by decide +kernel : ∀ t : Fin grid0.N, _)
/-- The column-block window of the scores sits at block (t / 32, t % 4). -/
theorem idx_facts1 : ∀ t : Fin cfg0.N, win0_1.index t (0 : Fin 2) = t.val / 32 ∧ win0_1.index t (1 : Fin 2) = t.val % 4 :=
  (by decide +kernel : ∀ t : Fin grid0.N, _)
/-- The row-block window of the labels sits at block (t / 32, (t / 4) % 8). -/
theorem idx_facts2 : ∀ t : Fin cfg0.N, win0_2.index t (0 : Fin 2) = t.val / 32 ∧ win0_2.index t (1 : Fin 2) = (t.val / 4) % 8 :=
  (by decide +kernel : ∀ t : Fin grid0.N, _)
/-- The column-block window of the labels sits at block (t / 32, t % 4). -/
theorem idx_facts3 : ∀ t : Fin cfg0.N, win0_3.index t (0 : Fin 2) = t.val / 32 ∧ win0_3.index t (1 : Fin 2) = t.val % 4 :=
  (by decide +kernel : ∀ t : Fin grid0.N, _)
/-- The table's window sits at block ((t / 4) % 8, t % 4). -/
theorem idx_facts4 : ∀ t : Fin cfg0.N, win0_4.index t (0 : Fin 2) = (t.val / 4) % 8 ∧ win0_4.index t (1 : Fin 2) = t.val % 4 :=
  (by decide +kernel : ∀ t : Fin grid0.N, _)

/-! ## The array coordinates a point's blocks cover -/

/-- A point is below 64. -/
theorem point_lt (t : Fin cfg0.N) : t.val < 64 := lt_of_lt_of_eq t.isLt N_0

/-- The sample that row r of point t's sample block is. -/
abbrev sampleAt (t : Fin cfg0.N) (r : Fin 8) : Fin 16 :=
  ⟨8 * (t.val / 32) + r.val, by have := point_lt t; have := r.isLt; omega⟩
/-- The position that row i of point t's row block is. -/
abbrev rowPosAt (t : Fin cfg0.N) (i : Fin 256) : Fin 2048 :=
  ⟨256 * ((t.val / 4) % 8) + i.val, by have := i.isLt; omega⟩
/-- The position that column j of point t's column block is. -/
abbrev colPosAt (t : Fin cfg0.N) (j : Fin 512) : Fin 2048 :=
  ⟨512 * (t.val % 4) + j.val, by have := j.isLt; omega⟩

/-! ## The windows' blocks at coordinates -/

/-- The scores' row block at a point: entry (r, i) is the score of sample 8 g0 + r at position 256 g1 + i. -/
theorem rowScores_at (c : Dev nD) (t : Fin cfg0.N) (r : Fin 8) (i : Fin 256) :
    (iblk m c 0 t : Vec F S8x256 .f32) (ix2 r i) = V m c main_v5 (ix2 (sampleAt t r) (rowPosAt t i)) := by
  obtain ⟨e0, e1⟩ := idx_facts0 t
  unfold iblk
  rw [View.read_apply]
  show V m c main_v5 (((cfg0.win 0).blk t).view.emb (ix2 r i)) = V m c main_v5 _
  refine congrArg (V m c main_v5) ?_
  funext a; apply Fin.ext
  match a with
  | ⟨0, _⟩ => show win0_0.index t (0 : Fin 2) * 8 + 1 * r.val = 8 * (t.val / 32) + r.val; rw [e0]; omega
  | ⟨1, _⟩ => show win0_0.index t (1 : Fin 2) * 256 + 1 * i.val = 256 * ((t.val / 4) % 8) + i.val; rw [e1]; omega

/-- The scores' column block at a point: entry (r, j) is the score of sample 8 g0 + r at position 512 g2 + j. -/
theorem colScores_at (c : Dev nD) (t : Fin cfg0.N) (r : Fin 8) (j : Fin 512) :
    (iblk m c 1 t : Vec F S8x512 .f32) (ix2 r j) = V m c main_v5 (ix2 (sampleAt t r) (colPosAt t j)) := by
  obtain ⟨e0, e1⟩ := idx_facts1 t
  unfold iblk
  rw [View.read_apply]
  show V m c main_v5 (((cfg0.win 1).blk t).view.emb (ix2 r j)) = V m c main_v5 _
  refine congrArg (V m c main_v5) ?_
  funext a; apply Fin.ext
  match a with
  | ⟨0, _⟩ => show win0_1.index t (0 : Fin 2) * 8 + 1 * r.val = 8 * (t.val / 32) + r.val; rw [e0]; omega
  | ⟨1, _⟩ => show win0_1.index t (1 : Fin 2) * 512 + 1 * j.val = 512 * (t.val % 4) + j.val; rw [e1]; omega

/-- The labels' row block at a point: entry (r, i) is the label of sample 8 g0 + r at position 256 g1 + i. -/
theorem rowLabels_at (c : Dev nD) (t : Fin cfg0.N) (r : Fin 8) (i : Fin 256) :
    (iblk m c 2 t : Vec F S8x256 .f32) (ix2 r i) = V m c main_v6 (ix2 (sampleAt t r) (rowPosAt t i)) := by
  obtain ⟨e0, e1⟩ := idx_facts2 t
  unfold iblk
  rw [View.read_apply]
  show V m c main_v6 (((cfg0.win 2).blk t).view.emb (ix2 r i)) = V m c main_v6 _
  refine congrArg (V m c main_v6) ?_
  funext a; apply Fin.ext
  match a with
  | ⟨0, _⟩ => show win0_2.index t (0 : Fin 2) * 8 + 1 * r.val = 8 * (t.val / 32) + r.val; rw [e0]; omega
  | ⟨1, _⟩ => show win0_2.index t (1 : Fin 2) * 256 + 1 * i.val = 256 * ((t.val / 4) % 8) + i.val; rw [e1]; omega

/-- The labels' column block at a point: entry (r, j) is the label of sample 8 g0 + r at position 512 g2 + j. -/
theorem colLabels_at (c : Dev nD) (t : Fin cfg0.N) (r : Fin 8) (j : Fin 512) :
    (iblk m c 3 t : Vec F S8x512 .f32) (ix2 r j) = V m c main_v6 (ix2 (sampleAt t r) (colPosAt t j)) := by
  obtain ⟨e0, e1⟩ := idx_facts3 t
  unfold iblk
  rw [View.read_apply]
  show V m c main_v6 (((cfg0.win 3).blk t).view.emb (ix2 r j)) = V m c main_v6 _
  refine congrArg (V m c main_v6) ?_
  funext a; apply Fin.ext
  match a with
  | ⟨0, _⟩ => show win0_3.index t (0 : Fin 2) * 8 + 1 * r.val = 8 * (t.val / 32) + r.val; rw [e0]; omega
  | ⟨1, _⟩ => show win0_3.index t (1 : Fin 2) * 512 + 1 * j.val = 512 * (t.val % 4) + j.val; rw [e1]; omega

/-- The table's block at a point: entry (i, j) is the table's entry at positions (256 g1 + i, 512 g2 + j). -/
theorem table_at (c : Dev nD) (t : Fin cfg0.N) (i : Fin 256) (j : Fin 512) :
    (iblk m c 4 t : Vec F S256x512 .f32) (ix2 i j) = V m c main_v17 (ix2 (rowPosAt t i) (colPosAt t j)) := by
  obtain ⟨e0, e1⟩ := idx_facts4 t
  unfold iblk
  rw [View.read_apply]
  show V m c main_v17 (((cfg0.win 4).blk t).view.emb (ix2 i j)) = V m c main_v17 _
  refine congrArg (V m c main_v17) ?_
  funext a; apply Fin.ext
  match a with
  | ⟨0, _⟩ => show win0_4.index t (0 : Fin 2) * 256 + 1 * i.val = 256 * ((t.val / 4) % 8) + i.val; rw [e0]; omega
  | ⟨1, _⟩ => show win0_4.index t (1 : Fin 2) * 512 + 1 * j.val = 512 * (t.val % 4) + j.val; rw [e1]; omega

end Cert.KernelIdeal.Hand

end
-- ==== Proof.KFinal.lean ====
/-
  The output array after the run.

  The output array has 16 rows and one column; it is written through a window of 8 rows, whose block index is the sample
  block of the grid point (the point divided by 32). The window is written back at the last point of each sample
  block, points 31 and 63, and what is written is the running block after that point. The two blocks written are rows
  0–7 and rows 8–15: together they are the whole array, so row `b` of the array ends as row `b mod 8` of the running
  block after the last point of sample block `b / 8`.
-/
import proofs.«181403_j43963285241920_2_alg».proof.Proof.KChain
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The output window at point `t`: its block index is `(t / 32, 0)`, and the block it moves is all 8 rows and the one
    column (no block overhangs the array). -/
theorem win5_facts : ∀ t : Fin cfg0.N,
    win0_5.index t (0 : Fin 2) = t.val / 32 ∧ win0_5.index t (1 : Fin 2) = 0
      ∧ win0_5.xsize (grid0.coords t) (0 : Fin 2) = 8 ∧ win0_5.xsize (grid0.coords t) (1 : Fin 2) = 1 :=
  (by decide +kernel : ∀ t : Fin grid0.N,
    win0_5.index t (0 : Fin 2) = t.val / 32 ∧ win0_5.index t (1 : Fin 2) = 0
      ∧ win0_5.xsize (grid0.coords t) (0 : Fin 2) = 8 ∧ win0_5.xsize (grid0.coords t) (1 : Fin 2) = 1)

/-- The running block at equal points and equal indices. -/
theorem acc_congr (c : Dev nD) (n n' : ℕ) (h : n < cfg0.N) (h' : n' < cfg0.N) (e : n = n') (j j' : S8x1.Idx) (ej : j = j') :
    acc m c n h j = acc m c n' h' j' := by
  subst e; subst ej; rfl

/-- Row `b` of the output array is row `b % 8` of the running block after the last point of sample block `b / 8`. -/
def result (c : Dev nD) : Buf (Elt F) ((c : Thread nD τ).loc main_v18) := fun (i : S16x1.Idx) =>
  acc m c (32 * ((i 0).val / 8) + 31) (by have := ValueIdx.idx2_lt0 i; rw [show cfg0.N = 64 from N_0]; omega)
    (ValueIdx.ix2 (n0 := 8) (n1 := 1) ⟨(i 0).val % 8, Nat.mod_lt _ (by decide)⟩ 0)

/-- The array read at row `b` (its one column is column 0). -/
theorem result_apply (c : Dev nD) (b : Fin 16) :
    result m c (ValueIdx.ix2 (n0 := 16) (n1 := 1) b 0)
      = acc m c (32 * (b.val / 8) + 31) (by have := b.isLt; rw [show cfg0.N = 64 from N_0]; omega)
          (ValueIdx.ix2 (n0 := 8) (n1 := 1) ⟨b.val % 8, Nat.mod_lt _ (by decide)⟩ 0) := rfl

/-- Each write-back writes its block of that array: at a flushing point `t` (`t % 32 = 31`) row `y` of the block written is
    row `8 · (t / 32) + y` of the array, whose sample block is `t / 32` and whose last point is `t`. -/
theorem flushed_eq (c : Dev nD) (t : Fin cfg0.N) (hf : (cfg0.win 5).flush t = true) :
    (dats m 0 c).flushed 5 t = ((cfg0.win 5).blk t).view.read (Elt F) (result m c) := by
  have hN : t.val < 64 := lt_of_lt_of_eq t.isLt (show cfg0.N = 64 from N_0)
  have h31 : t.val % 32 = 31 := (flush0_5 t).mp hf
  obtain ⟨hi0, hi1, hx0, hx1⟩ := win5_facts t
  show (cfg0.win 5).cut (grid0.coords t) ((dats m 0 c).after 5 t) = _
  rw [after_out, outsAt_eq]
  funext y
  rw [View.read_apply]
  have hy0 : (y 0).val < 8 := lt_of_lt_of_eq (y 0).isLt hx0
  have hy1 : (y 1).val < 1 := lt_of_lt_of_eq (y 1).isLt hx1
  have he0 : ((((cfg0.win 5).blk t).view.emb y) 0 : ℕ) = t.val / 32 * 8 + (y 0).val := by
    show win0_5.index t 0 * 8 + 1 * (y 0).val = _
    rw [hi0]; omega
  show acc m c t.val t.isLt ((cfg0.win 5).xinj (grid0.coords t) y) = result m c (((cfg0.win 5).blk t).view.emb y)
  unfold result
  refine acc_congr m c _ _ _ _ ?_ _ _ ?_
  · rw [he0]; omega
  · funext a
    apply Fin.ext
    match a with
    | ⟨0, _⟩ => show (y 0).val = ((((cfg0.win 5).blk t).view.emb y) 0 : ℕ) % 8; rw [he0]; omega
    | ⟨1, _⟩ => show (y 1).val = 0; omega

/-- So the output array ends holding it: row `b` lies in the block written back at point `32 · (b / 8) + 31`. -/
theorem final_out (c : Dev nD) : (dats m 0 c).arrAt 5 cfg0.N = result m c :=
  (dats m 0 c).arrAt_eq_of_cover 5 (result m c) (flushed_eq m c) fun i => by
    have h0 : (i 0 : Nat) < 16 := (i 0).isLt
    have h1 : (i 1 : Nat) < 1 := (i 1).isLt
    have hlt : 32 * ((i 0 : Nat) / 8) + 31 < cfg0.N := by rw [show cfg0.N = 64 from N_0]; omega
    refine ⟨⟨32 * ((i 0 : Nat) / 8) + 31, hlt⟩, (flush0_5 _).mpr (by show (32 * ((i 0 : Nat) / 8) + 31) % 32 = 31; omega), ?_⟩
    obtain ⟨hi0, hi1, hx0, hx1⟩ := win5_facts ⟨32 * ((i 0 : Nat) / 8) + 31, hlt⟩
    show i ∈ ((View.whole main_v18).slice (win0_5.rect ⟨32 * ((i 0 : Nat) / 8) + 31, hlt⟩)).set
    rw [View.set_slice_whole, Rect.mem_set_unit]
    intro a
    match a with
    | ⟨0, _⟩ =>
      show win0_5.index ⟨32 * ((i 0 : Nat) / 8) + 31, hlt⟩ 0 * 8 ≤ (i 0 : Nat)
        ∧ (i 0 : Nat) < win0_5.index ⟨32 * ((i 0 : Nat) / 8) + 31, hlt⟩ 0 * 8 + win0_5.xsize (grid0.coords ⟨32 * ((i 0 : Nat) / 8) + 31, hlt⟩) 0
      rw [hi0, hx0]; dsimp only; omega
    | ⟨1, _⟩ =>
      show win0_5.index ⟨32 * ((i 0 : Nat) / 8) + 31, hlt⟩ 1 * 1 ≤ (i 1 : Nat)
        ∧ (i 1 : Nat) < win0_5.index ⟨32 * ((i 0 : Nat) / 8) + 31, hlt⟩ 1 * 1 + win0_5.xsize (grid0.coords ⟨32 * ((i 0 : Nat) / 8) + 31, hlt⟩) 1
      rw [hi1, hx1]; omega

end Cert.KernelIdeal.Hand

end
-- ==== Proof.BodyValue.lean ====
/-
  The kernel body's arithmetic read at one output entry, on the extended reals.

  The body holds a block of 8 samples, 256 rows and 512 columns.  With scores `xi r i` (rows) and `xj r j` (columns),
  label weights `li r i` and `lj r j`, and a table `nb i j`, it forms the difference tensor d r i j = xi r i − xj r j
  by laying the row scores along the columns and the column scores along the rows, then
    A r i = Σ_j max (nb i j · d r i j) 0 · lj r j      and      B r i j = max (0 − d r i j) 0 · (1 − lj r j),
  and adds to what the output entry `r` held before the sum over `i` of  li r i · (A r i + c · Σ_j B r i j),
  where `c` is the float literal one tenth, kept as its word.
-/
import proofs.«181403_j43963285241920_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.BodyValue

open Cert.KernelIdeal Cert.KernelIdeal.Gen Idealize.ShloMosaic Idealize.ShloMosaic.ValueIdx

/-! ## The layout operations at explicit coordinates -/

section Layout
variable {α : Type}

/-- Row scores laid along the columns: the [8,256] block viewed [8,256,1] and repeated over 512 columns reads, at
    `(r, i, j)`, the block at `(r, i)`. -/
theorem alongCols_apply (x : S8x256.Idx → α) (hc : S8x256.ShapeCasts S8x256x1) (hb : S8x256x1.Broadcasts S8x256x512)
    (r : Fin 8) (i : Fin 256) (j : Fin 512) :
    broadcastTo S8x256x512 (shapeCast S8x256x1 x hc) hb (ix3 r i j) = x (ix2 r i) := by
  refine (broadcastTo_apply _ hb (ix3 r i j) (ix3 r i (0 : Fin 1)) fun a => ?_).trans ?_
  · match a with
    | ⟨0, _⟩ => rfl
    | ⟨1, _⟩ => rfl
    | ⟨2, _⟩ => rfl
  · refine shapeCast_apply x hc _ _ ?_
    rw [Shape.rowMajor_val_three, Shape.rowMajor_val_two]
    show r.val * 256 + i.val = (r.val * 256 + i.val) * 1 + 0
    omega

/-- Column values laid along the rows: the [8,512] block viewed [8,1,512] and repeated over 256 rows reads, at
    `(r, i, j)`, the block at `(r, j)`. -/
theorem alongRows_apply (x : S8x512.Idx → α) (hc : S8x512.ShapeCasts S8x1x512) (hb : S8x1x512.Broadcasts S8x256x512)
    (r : Fin 8) (i : Fin 256) (j : Fin 512) :
    broadcastTo S8x256x512 (shapeCast S8x1x512 x hc) hb (ix3 r i j) = x (ix2 r j) := by
  refine (broadcastTo_apply _ hb (ix3 r i j) (ix3 r (0 : Fin 1) j) fun a => ?_).trans ?_
  · match a with
    | ⟨0, _⟩ => rfl
    | ⟨1, _⟩ => rfl
    | ⟨2, _⟩ => rfl
  · refine shapeCast_apply x hc _ _ ?_
    rw [Shape.rowMajor_val_three, Shape.rowMajor_val_two]
    show r.val * 512 + j.val = (r.val * 1 + 0) * 512 + j.val
    omega

/-- The table repeated over the samples: the [256,512] block viewed [1,256,512] and repeated 8 times reads, at
    `(r, i, j)`, the block at `(i, j)`. -/
theorem overSamples_apply (x : S256x512.Idx → α) (hc : S256x512.ShapeCasts S1x256x512)
    (hb : S1x256x512.Broadcasts S8x256x512) (r : Fin 8) (i : Fin 256) (j : Fin 512) :
    broadcastTo S8x256x512 (shapeCast S1x256x512 x hc) hb (ix3 r i j) = x (ix2 i j) := by
  refine (broadcastTo_apply _ hb (ix3 r i j) (ix3 (0 : Fin 1) i j) fun a => ?_).trans ?_
  · match a with
    | ⟨0, _⟩ => rfl
    | ⟨1, _⟩ => rfl
    | ⟨2, _⟩ => rfl
  · exact shapeCast_ab_1ab_apply x hc 0 i j

/-- A per-sample vector stored as a column: the [8] vector viewed [8,1] reads, at `(r, 0)`, the vector at `r`. -/
theorem asColumn_apply (x : S8.Idx → α) (hc : S8.ShapeCasts S8x1) (r : Fin 8) (u : Fin 1) :
    shapeCast S8x1 x hc (ix2 r u) = x (ix1 r) := by
  refine shapeCast_apply x hc _ _ ?_
  have hu : u.val = 0 := by omega
  rw [Shape.rowMajor_val_two, Shape.rowMajor_val_one]
  show r.val = r.val * 1 + u.val
  omega

end Layout

/-! ## The sums over one axis -/

/-- The index over `(r, i)` with column `j` put back on the reduced axis. -/
theorem lift_cols (h : S8x256x512.Reduces [2] S8x256) (r : Fin 8) (i : Fin 256) (j : Fin 512) :
    h.lift (ix2 r i) j = ix3 r i j := by
  funext a
  match a with
  | ⟨0, _⟩ => rfl
  | ⟨1, _⟩ => rfl
  | ⟨2, _⟩ => rfl

/-- The index over `r` with row `i` put back on the reduced axis. -/
theorem lift_rows (h : S8x256.Reduces [1] S8) (r : Fin 8) (i : Fin 256) :
    h.lift (ix1 r) i = ix2 r i := by
  funext a
  match a with
  | ⟨0, _⟩ => rfl
  | ⟨1, _⟩ => rfl

/-- A sum over the columns from the zero word, read at `(r, i)`. -/
theorem sumCols_apply (src : FVec Ideal S8x256x512 .f32) (h : S8x256x512.Reduces [2] S8x256)
    (hφ : FKind.Formats .f32) (hacc : (0x00000000#32 : BitVec 32) = 0x00000000#32) (r : Fin 8) (i : Fin 256) :
    multiReduction (F := Ideal) .add [2] S8x256 src 0x00000000#32 h hφ hacc (ix2 r i)
      = ∑ j : Fin 512, src (ix3 r i j) := by
  refine (Ideal.multiReduction_add_single src 0x00000000#32 h hφ hacc (ix2 r i)).trans ?_
  exact Finset.sum_congr rfl fun j _ => congrArg src (lift_cols h r i j)

/-- A sum over the rows from the zero word, read at `r`. -/
theorem sumRows_apply (src : FVec Ideal S8x256 .f32) (h : S8x256.Reduces [1] S8)
    (hφ : FKind.Formats .f32) (hacc : (0x00000000#32 : BitVec 32) = 0x00000000#32) (r : Fin 8) :
    multiReduction (F := Ideal) .add [1] S8 src 0x00000000#32 h hφ hacc (ix1 r)
      = ∑ i : Fin 256, src (ix2 r i) := by
  refine (Ideal.multiReduction_add_single src 0x00000000#32 h hφ hacc (ix1 r)).trans ?_
  exact Finset.sum_congr rfl fun i _ => congrArg src (lift_rows h r i)

/-! ## The body's values at explicit coordinates -/

/-- The zero word is the extended real zero, and the one word is one. -/
theorem zeroWord : (Scalar.ofBits .f32 0x00000000#32 : Ideal .f32) = 0 := Ideal.ofBits_zero_f32
theorem oneWord : (Scalar.ofBits .f32 0x3F800000#32 : Ideal .f32) = 1 := Ideal.ofBits_one_f32

/-- The zero fill is zero at every entry. -/
theorem zero_fill (y : S8x1.Idx) : k0_pay2 (F := Ideal) y = 0 := by
  unfold k0_pay2
  exact Ideal.ofBits_zero_f32

/-- The row block's labels pass through unchanged. -/
theorem rowLabels_eq (l : Vec Ideal S8x256 .f32) : k0_pay3 (F := Ideal) l = l := by
  unfold k0_pay3
  exact shapeCast_self l _

/-- The column block's labels pass through unchanged. -/
theorem colLabels_eq (l : Vec Ideal S8x512 .f32) : k0_pay4 (F := Ideal) l = l := by
  unfold k0_pay4
  exact shapeCast_self l _

/-- The difference tensor at `(r, i, j)`. -/
theorem diff_at (xi : Vec Ideal S8x256 .f32) (xj : Vec Ideal S8x512 .f32) (r : Fin 8) (i : Fin 256) (j : Fin 512) :
    k0_pay5 (F := Ideal) xi xj (ix3 r i j) = xi (ix2 r i) - xj (ix2 r j) := by
  unfold k0_pay5
  refine (subf_apply _ _ _).trans ?_
  exact congrArg₂ (fun a b : EReal => a - b)
    ((alongCols_apply _ _ _ r i j).trans (congrFun (shapeCast_self xi _) _))
    ((alongRows_apply _ _ _ r i j).trans (congrFun (shapeCast_self xj _) _))

/-- The reversed-order hinge at `(r, i, j)`, weighted by the complement of the column's label. -/
theorem hinge_at (xi : Vec Ideal S8x256 .f32) (xj lj : Vec Ideal S8x512 .f32) (r : Fin 8) (i : Fin 256) (j : Fin 512) :
    k0_pay6 (F := Ideal) xi xj lj (ix3 r i j)
      = max (0 - (xi (ix2 r i) - xj (ix2 r j))) 0 * (1 - lj (ix2 r j)) := by
  unfold k0_pay6
  simp only [mulf_apply, maximumf_apply, subf_apply, broadcast_apply, alongRows_apply, diff_at, colLabels_eq,
    zeroWord, oneWord]

/-- The table-weighted hinge summed over the columns, at `(r, i)`. -/
theorem tableSum_at (xi : Vec Ideal S8x256 .f32) (xj lj : Vec Ideal S8x512 .f32) (nb : Vec Ideal S256x512 .f32)
    (r : Fin 8) (i : Fin 256) :
    k0_pay7 (F := Ideal) xi xj lj nb (ix2 r i)
      = ∑ j : Fin 512, max (nb (ix2 i j) * (xi (ix2 r i) - xj (ix2 r j))) 0 * lj (ix2 r j) := by
  unfold k0_pay7
  refine (sumCols_apply _ _ _ _ r i).trans ?_
  refine Finset.sum_congr rfl fun j _ => ?_
  simp only [mulf_apply, maximumf_apply, broadcast_apply, alongRows_apply, overSamples_apply, shapeCast_self, diff_at,
    colLabels_eq, zeroWord]

/-- What the body stores at entry `r`, over any three intermediate tensors. -/
theorem stored_gen (v10 : FVec Ideal S8x256 .f32) (v36 : FVec Ideal S8x256x512 .f32) (v37 : FVec Ideal S8x256 .f32)
    (prev : Vec Ideal S8x1 .f32) (r : Fin 8) :
    k0_pay1 (F := Ideal) v10 v36 v37 prev (ix2 r 0)
      = prev (ix2 r 0)
        + ∑ i : Fin 256, v10 (ix2 r i) *
            (v37 (ix2 r i) + Ideal.ofBits .f32 0x3DCCCCCD#32 * ∑ j : Fin 512, v36 (ix3 r i j)) := by
  unfold k0_pay1
  refine (addf_apply _ _ _).trans ?_
  refine congrArg₂ (fun a b : EReal => a + b) (congrFun (shapeCast_self prev _) _) ?_
  refine (asColumn_apply _ _ r 0).trans ?_
  refine (sumRows_apply _ _ _ _ r).trans ?_
  refine Finset.sum_congr rfl fun i _ => ?_
  simp only [mulf_apply, addf_apply, broadcast_apply]
  exact congrArg (fun a : EReal => v10 (ix2 r i) * (v37 (ix2 r i) + Ideal.ofBits .f32 0x3DCCCCCD#32 * a))
    (sumCols_apply v36 _ _ _ r i)

/-- What the body stores at entry `r`: what the entry held before plus the block's contribution. -/
theorem stored_at (xi : Vec Ideal S8x256 .f32) (xj : Vec Ideal S8x512 .f32) (li : Vec Ideal S8x256 .f32)
    (lj : Vec Ideal S8x512 .f32) (nb : Vec Ideal S256x512 .f32) (prev : Vec Ideal S8x1 .f32) (r : Fin 8) :
    k0_pay1 (F := Ideal) (k0_pay3 li) (k0_pay6 xi xj lj) (k0_pay7 xi xj lj nb) prev (ValueIdx.ix2 r 0)
      = prev (ValueIdx.ix2 r 0)
        + ∑ i : Fin 256, li (ValueIdx.ix2 r i) *
            ((∑ j : Fin 512, max (nb (ValueIdx.ix2 i j) * (xi (ValueIdx.ix2 r i) - xj (ValueIdx.ix2 r j))) 0
                * lj (ValueIdx.ix2 r j))
              + Ideal.ofBits .f32 0x3DCCCCCD#32
                * ∑ j : Fin 512, max (0 - (xi (ValueIdx.ix2 r i) - xj (ValueIdx.ix2 r j))) 0
                    * (1 - lj (ValueIdx.ix2 r j))) := by
  rw [stored_gen, rowLabels_eq]
  simp only [tableSum_at, hinge_at]

end Cert.BodyValue

end
-- ==== Proof.BlockFold.lean ====
/-
  A running value that is reset at every 32nd step and increased at every step, read after the last step of a group.

  If a n = 0 + S n when 32 divides n, and a n = a (n - 1) + S n otherwise, then after the k-th step of the group
  that starts at 32 s the value is the sum of the group's first k + 1 increments; after the last step it is the sum
  of all 32.  The 32 steps of a group are indexed by 8 × 4, step 4 I + J.  Only the commutativity and associativity
  of addition and 0 + x = x are used.  Likewise 16 samples are indexed by 2 × 8, sample 8 s + r.
-/
import Mathlib.Data.EReal.Operations
import Mathlib.Algebra.BigOperators.Group.Finset.Basic
import Mathlib.Algebra.BigOperators.Group.Finset.Sigma
import Mathlib.Algebra.BigOperators.Fin
import Mathlib.Data.Fintype.BigOperators

namespace Cert.BlockFold

open Finset

/-- Within a group, the running value after step k is the sum of the increments of steps 0..k. -/
theorem fold_prefix {M : Type*} [AddCommMonoid M] (S a : ℕ → M) (h0 : ∀ n, n % 32 = 0 → a n = 0 + S n)
    (hs : ∀ n, n % 32 ≠ 0 → a n = a (n - 1) + S n) (s : ℕ) :
    ∀ k, k ≤ 31 → a (32 * s + k) = ∑ j ∈ Finset.range (k + 1), S (32 * s + j) := by
  intro k
  induction k with
  | zero =>
    intro _
    rw [h0 (32 * s + 0) (by omega), zero_add, Finset.sum_range_one]
  | succ k ih =>
    intro hk
    rw [hs (32 * s + (k + 1)) (by omega), show 32 * s + (k + 1) - 1 = 32 * s + k by omega, ih (by omega),
      Finset.sum_range_succ (fun j => S (32 * s + j)) (k + 1)]

/-- The pair (I, J) with I < 8 and J < 4 runs over the steps 4 I + J of a group exactly once. -/
def stepEquiv : Fin 8 × Fin 4 ≃ Fin 32 where
  toFun q := ⟨4 * q.1.val + q.2.val, by omega⟩
  invFun k := (⟨k.val / 4, by omega⟩, ⟨k.val % 4, by omega⟩)
  left_inv := by
    rintro ⟨I, J⟩
    ext
    · dsimp only; omega
    · dsimp only; omega
  right_inv := by
    intro k
    ext
    dsimp only; omega

/-- The pair (s, r) with s < 2 and r < 8 runs over the samples 8 s + r exactly once. -/
def sampleEquiv : Fin 2 × Fin 8 ≃ Fin 16 where
  toFun q := ⟨8 * q.1.val + q.2.val, by omega⟩
  invFun b := (⟨b.val / 8, by omega⟩, ⟨b.val % 8, by omega⟩)
  left_inv := by
    rintro ⟨s, r⟩
    ext
    · dsimp only; omega
    · dsimp only; omega
  right_inv := by
    intro b
    ext
    dsimp only; omega

/-- A sum over 32 consecutive steps, regrouped as 8 × 4. -/
theorem sum_range_32 {M : Type*} [AddCommMonoid M] (f : ℕ → M) :
    ∑ j ∈ Finset.range 32, f j = ∑ I : Fin 8, ∑ J : Fin 4, f (4 * I.val + J.val) := by
  rw [Finset.sum_range]
  exact ((Fintype.sum_prod_type' (fun (I : Fin 8) (J : Fin 4) => f (4 * I.val + J.val))).symm.trans
    (Fintype.sum_equiv stepEquiv _ _ (fun _ => rfl))).symm

/-- After the last step of the group that starts at 32 s, the running value is the sum of the group's 32 increments. -/
theorem fold_blocks (S a : ℕ → EReal) (h0 : ∀ n, n % 32 = 0 → a n = 0 + S n)
    (hs : ∀ n, n % 32 ≠ 0 → a n = a (n - 1) + S n) (s : ℕ) :
    a (32 * s + 31) = ∑ I : Fin 8, ∑ J : Fin 4, S (32 * s + 4 * I.val + J.val) := by
  rw [fold_prefix S a h0 hs s 31 le_rfl, sum_range_32 (fun j => S (32 * s + j))]
  refine Finset.sum_congr rfl (fun I _ => Finset.sum_congr rfl (fun J _ => ?_))
  rw [Nat.add_assoc]

/-- A sum over 16 samples, regrouped as 2 × 8. -/
theorem sum_samples (g : ℕ → ℕ → EReal) :
    ∑ b : Fin 16, g (b.val / 8) (b.val % 8) = ∑ s : Fin 2, ∑ r : Fin 8, g s.val r.val :=
  (Fintype.sum_equiv sampleEquiv.symm (fun b : Fin 16 => g (b.val / 8) (b.val % 8))
      (fun q : Fin 2 × Fin 8 => g q.1.val q.2.val) (fun _ => rfl)).trans
    (Fintype.sum_prod_type' (fun (s : Fin 2) (r : Fin 8) => g s.val r.val))

end Cert.BlockFold
-- ==== Proof.KRows.lean ====
/-
  The output block's running contents, entry by entry, as partial sums of the loss.

  After a grid point the output block of 8 samples holds, at sample row r, what it held before (zero at the first point
  of a sample block) plus the contribution of the point's row block and column block to that sample. Following the 32
  points of a sample block, the entry ends as the sum of the contributions of all 8 × 4 pairs of a row block and a
  column block; the 16 rows of the output array, two sample blocks of 8, then sum to the blocked form of the loss.
-/
import proofs.«181403_j43963285241920_2_alg».proof.Proof.KChain
import proofs.«181403_j43963285241920_2_alg».proof.Proof.KArrays
import proofs.«181403_j43963285241920_2_alg».proof.Proof.KBlocks
import proofs.«181403_j43963285241920_2_alg».proof.Proof.KFinal
import proofs.«181403_j43963285241920_2_alg».proof.Proof.BodyValue
import proofs.«181403_j43963285241920_2_alg».proof.Proof.PairLoss
import proofs.«181403_j43963285241920_2_alg».proof.Proof.BlockFold

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx (ix2)
open Cert (PairLoss.part PairLoss.rowAt PairLoss.colAt)

/-- The scale of the second summand: the float literal one tenth, kept as its word. -/
abbrev cst : EReal := Ideal.ofBits .f32 0x3DCCCCCD#32

/-! ## One point's stored value as a block's contribution -/

/-- If the six blocks' entries of sample row `r` are the arrays' entries of sample `b`, row block `I` and column block
    `J`, the stored value at row `r` is the previous one plus that block's contribution. -/
theorem stored_of_entries (x0 : Vec Ideal S8x256 .f32) (x1 : Vec Ideal S8x512 .f32) (x2 : Vec Ideal S8x256 .f32)
    (x3 : Vec Ideal S8x512 .f32) (x4 : Vec Ideal S256x512 .f32) (prev : Vec Ideal S8x1 .f32) (r : Fin 8)
    (sc lb : Fin 16 → Fin 2048 → EReal) (tb : Fin 2048 → Fin 2048 → EReal) (b : Fin 16) (I : Fin 8) (J : Fin 4)
    (h0 : ∀ i : Fin 256, x0 (ix2 r i) = sc b (PairLoss.rowAt I i))
    (h1 : ∀ j : Fin 512, x1 (ix2 r j) = sc b (PairLoss.colAt J j))
    (h2 : ∀ i : Fin 256, x2 (ix2 r i) = lb b (PairLoss.rowAt I i))
    (h3 : ∀ j : Fin 512, x3 (ix2 r j) = lb b (PairLoss.colAt J j))
    (h4 : ∀ (i : Fin 256) (j : Fin 512), x4 (ix2 i j) = tb (PairLoss.rowAt I i) (PairLoss.colAt J j)) :
    stored (F := Ideal) x0 x1 x2 x3 x4 prev (ix2 r 0) = prev (ix2 r 0) + PairLoss.part cst sc lb tb b I J := by
  refine (Cert.BodyValue.stored_at x0 x1 x2 x3 x4 prev r).trans ?_
  unfold PairLoss.part
  simp only [h0, h1, h2, h3, h4]

variable (m : (ℓ : Loc nD τ sig) → Buf (Elt Ideal) ℓ)

/-- The row block and the column block of a point. -/
abbrev rowBlk (t : Fin cfg0.N) : Fin 8 := ⟨(t.val / 4) % 8, by omega⟩
abbrev colBlk (t : Fin cfg0.N) : Fin 4 := ⟨t.val % 4, by omega⟩

/-- Row `i` of a point's row block, and column `j` of its column block, as positions in the arrays. -/
theorem rowPos_eq (t : Fin cfg0.N) (i : Fin 256) : rowPosAt t i = PairLoss.rowAt (rowBlk t) i :=
  Fin.ext (by show 256 * ((t.val / 4) % 8) + i.val = (t.val / 4) % 8 * 256 + i.val; omega)
theorem colPos_eq (t : Fin cfg0.N) (j : Fin 512) : colPosAt t j = PairLoss.colAt (colBlk t) j :=
  Fin.ext (by show 512 * (t.val % 4) + j.val = t.val % 4 * 512 + j.val; omega)

/-- A point's contribution to the sample in row `r` of its sample block. -/
def contrib (c : Dev nD) (t : Fin cfg0.N) (r : Fin 8) : EReal :=
  PairLoss.part cst (scores m c) (labels m c) (table m c) (sampleAt t r) (rowBlk t) (colBlk t)

/-- The value a point stores over previous contents `prev`, at row `r`. -/
theorem stored_point (c : Dev nD) (t : Fin cfg0.N) (prev : Vec Ideal S8x1 .f32) (r : Fin 8) :
    stored (F := Ideal) (iblk m c 0 t : Vec Ideal S8x256 .f32) (iblk m c 1 t : Vec Ideal S8x512 .f32)
        (iblk m c 2 t : Vec Ideal S8x256 .f32) (iblk m c 3 t : Vec Ideal S8x512 .f32)
        (iblk m c 4 t : Vec Ideal S256x512 .f32) prev (ix2 r 0)
      = prev (ix2 r 0) + contrib m c t r := by
  unfold contrib
  refine stored_of_entries (iblk m c 0 t : Vec Ideal S8x256 .f32) (iblk m c 1 t : Vec Ideal S8x512 .f32)
    (iblk m c 2 t : Vec Ideal S8x256 .f32) (iblk m c 3 t : Vec Ideal S8x512 .f32)
    (iblk m c 4 t : Vec Ideal S256x512 .f32) prev r (scores m c) (labels m c) (table m c) (sampleAt t r) (rowBlk t)
    (colBlk t) (fun i => ?_) (fun j => ?_) (fun i => ?_) (fun j => ?_) (fun i j => ?_)
  · rw [rowScores_at (F := Ideal) m c t r i, rowPos_eq]; unfold scores; rfl
  · rw [colScores_at (F := Ideal) m c t r j, colPos_eq]; unfold scores; rfl
  · rw [rowLabels_at (F := Ideal) m c t r i, rowPos_eq]; unfold labels; rfl
  · rw [colLabels_at (F := Ideal) m c t r j, colPos_eq]; unfold labels; rfl
  · rw [table_at (F := Ideal) m c t i j, rowPos_eq, colPos_eq]; unfold table; rfl

/-! ## The running contents, point by point -/

/-- After the first point: its contribution over the zero fill. -/
theorem acc_zero (c : Dev nD) (h : 0 < cfg0.N) (r : Fin 8) :
    acc (F := Ideal) m c 0 h (ix2 r 0) = 0 + contrib m c ⟨0, h⟩ r := by
  rw [acc]
  exact (stored_point m c ⟨0, h⟩ (k0_pay2 (F := Ideal)) r).trans
    (congrArg (fun a : EReal => a + contrib m c ⟨0, h⟩ r) (Cert.BodyValue.zero_fill _))

/-- After a later point: its contribution over zero at the first point of a sample block, over the running contents
    elsewhere. -/
theorem acc_succ (c : Dev nD) (n : ℕ) (h : n + 1 < cfg0.N) (r : Fin 8) :
    acc (F := Ideal) m c (n + 1) h (ix2 r 0)
      = (if (n + 1) % 32 = 0 then 0 else acc (F := Ideal) m c n (Nat.lt_of_succ_lt h) (ix2 r 0))
        + contrib m c ⟨n + 1, h⟩ r := by
  rw [acc]
  by_cases h0 : (n + 1) % 32 = 0
  · rw [if_pos h0, if_pos h0]
    exact (stored_point m c ⟨n + 1, h⟩ (k0_pay2 (F := Ideal)) r).trans
      (congrArg (fun a : EReal => a + contrib m c ⟨n + 1, h⟩ r) (Cert.BodyValue.zero_fill _))
  · rw [if_neg h0, if_neg h0]
    exact stored_point m c ⟨n + 1, h⟩ (acc (F := Ideal) m c n (Nat.lt_of_succ_lt h)) r

/-- The same at any point `n`, the point before written `n - 1`. -/
theorem acc_step (c : Dev nD) (n : ℕ) (h : n < cfg0.N) (r : Fin 8) :
    acc (F := Ideal) m c n h (ix2 r 0)
      = (if n % 32 = 0 then 0 else acc (F := Ideal) m c (n - 1) (by omega) (ix2 r 0))
        + PairLoss.part cst (scores m c) (labels m c) (table m c) (sampleAt ⟨n, h⟩ r) (rowBlk ⟨n, h⟩) (colBlk ⟨n, h⟩) := by
  cases n with
  | zero => exact acc_zero m c h r
  | succ n => exact acc_succ m c n h r

/-! ## The last point of a sample block -/

/-- The sample in row `r` of sample block `s`. -/
abbrev sampleOf (s : Fin 2) (r : Fin 8) : Fin 16 := ⟨8 * s.val + r.val, by omega⟩

/-- The contribution to sample `b` of the pair of blocks that step `k` of a sample block visits: row block `k / 4`,
    column block `k % 4`. -/
def stepPart (c : Dev nD) (b : Fin 16) (k : ℕ) : EReal :=
  PairLoss.part cst (scores m c) (labels m c) (table m c) b ⟨(k / 4) % 8, by omega⟩ ⟨k % 4, by omega⟩

/-- Step `4 I + J` visits row block `I` and column block `J`. -/
theorem stepPart_pair (c : Dev nD) (b : Fin 16) (I : Fin 8) (J : Fin 4) :
    stepPart m c b (4 * I.val + J.val) = PairLoss.part cst (scores m c) (labels m c) (table m c) b I J := by
  unfold stepPart
  exact congrArg₂ (fun (I' : Fin 8) (J' : Fin 4) => PairLoss.part cst (scores m c) (labels m c) (table m c) b I' J')
    (Fin.ext (by show (4 * I.val + J.val) / 4 % 8 = I.val; omega))
    (Fin.ext (by show (4 * I.val + J.val) % 4 = J.val; omega))

/-- The point `32 s + k` is step `k` of sample block `s`. -/
theorem contrib_step (c : Dev nD) (s : Fin 2) (k : ℕ) (hk : k < 32) (h : 32 * s.val + k < cfg0.N) (r : Fin 8) :
    contrib m c ⟨32 * s.val + k, h⟩ r = stepPart m c (sampleOf s r) k := by
  unfold contrib stepPart
  have e1 : sampleAt ⟨32 * s.val + k, h⟩ r = sampleOf s r :=
    Fin.ext (by show 8 * ((32 * s.val + k) / 32) + r.val = 8 * s.val + r.val; omega)
  have e2 : rowBlk ⟨32 * s.val + k, h⟩ = ⟨(k / 4) % 8, by omega⟩ :=
    Fin.ext (by show (32 * s.val + k) / 4 % 8 = k / 4 % 8; omega)
  have e3 : colBlk ⟨32 * s.val + k, h⟩ = ⟨k % 4, by omega⟩ :=
    Fin.ext (by show (32 * s.val + k) % 4 = k % 4; omega)
  rw [e1, e2, e3]

/-- Within sample block `s`, after step `k` the entry of row `r` is the sum of the steps' contributions so far. -/
theorem acc_prefix (c : Dev nD) (s : Fin 2) (r : Fin 8) :
    ∀ (k : ℕ) (hk : k ≤ 31) (h : 32 * s.val + k < cfg0.N),
      acc (F := Ideal) m c (32 * s.val + k) h (ix2 r 0)
        = ∑ j ∈ Finset.range (k + 1), stepPart m c (sampleOf s r) j := by
  intro k
  induction k with
  | zero =>
    intro _ h
    rw [acc_step m c (32 * s.val + 0) h r, if_pos (by omega), zero_add, Finset.sum_range_one]
    exact contrib_step m c s 0 (by omega) h r
  | succ k ih =>
    intro hk h
    refine (acc_succ m c (32 * s.val + k) h r).trans ?_
    rw [if_neg (by omega), ih (by omega) (Nat.lt_of_succ_lt h), Finset.sum_range_succ _ (k + 1)]
    exact congrArg (fun a : EReal => (∑ j ∈ Finset.range (k + 1), stepPart m c (sampleOf s r) j) + a)
      (contrib_step m c s (k + 1) (by omega) h r)

/-- The last point of a sample block is a point. -/
theorem last_lt (s : Fin 2) : 32 * s.val + 31 < cfg0.N := by
  have hN : cfg0.N = 64 := N_0
  omega

/-- After the last point of sample block `s`, the entry of row `r` is the sum over every pair of a row block and a
    column block of the pair's contribution to sample `8 s + r`. -/
theorem acc_last (c : Dev nD) (s : Fin 2) (r : Fin 8) (h : 32 * s.val + 31 < cfg0.N) :
    acc (F := Ideal) m c (32 * s.val + 31) h (ix2 r 0)
      = ∑ I : Fin 8, ∑ J : Fin 4, PairLoss.part cst (scores m c) (labels m c) (table m c) (sampleOf s r) I J := by
  rw [acc_prefix m c s r 31 le_rfl h, Cert.BlockFold.sum_range_32]
  exact Finset.sum_congr rfl fun I _ => Finset.sum_congr rfl fun J _ => stepPart_pair m c (sampleOf s r) I J

/-! ## The sum of the output array's rows -/

/-- The 16 rows of the output array sum to the blocked form of the loss: row `b` is row `b % 8` of sample block
    `b / 8` after its last point. -/
theorem sum_result (c : Dev nD) :
    Finset.sum (M := EReal) Finset.univ (fun b : Fin 16 => result (F := Ideal) m c (ValueIdx.ix2 b 0))
      = ∑ b : Fin 16, ∑ I : Fin 8, ∑ J : Fin 4,
          PairLoss.part cst (scores m c) (labels m c) (table m c) b I J := by
  refine Finset.sum_congr rfl fun b _ => ?_
  rw [result_apply]
  refine (acc_last m c ⟨b.val / 8, by omega⟩ ⟨b.val % 8, Nat.mod_lt _ (by decide)⟩ _).trans ?_
  have e : sampleOf ⟨b.val / 8, by omega⟩ ⟨b.val % 8, Nat.mod_lt _ (by decide)⟩ = b :=
    Fin.ext (by show 8 * (b.val / 8) + b.val % 8 = b.val; omega)
  rw [e]

end Cert.KernelIdeal.Hand

end
-- ==== Proof.LibNonnegSum.lean ====
/-
  Multiplication over finite sums of nonnegative extended reals.

  The extended reals are no semiring: a · (x + y) = a · x + a · y fails when x and y are infinities of opposite signs.
  It holds whenever x and y are both nonnegative, for every a, and therefore a factor may be moved inside a finite sum
  all of whose terms are nonnegative. This is the law that lets a common factor be taken out of, or put into, a sum of
  hinge terms (maxima with 0) times nonnegative weights without any finiteness assumption on the terms.
-/
import Mathlib.Data.EReal.Operations
import Mathlib.Algebra.BigOperators.Group.Finset.Basic
import Mathlib.Algebra.Order.BigOperators.Group.Finset

namespace Cert.NonnegSum

/-- A finite sum of nonnegative terms may be multiplied through: `a * ∑ f = ∑ a * f` when every `f k ≥ 0`, for any
    extended real `a` (infinite or negative included). -/
theorem mul_sum_of_nonneg {ι : Type*} (a : EReal) (s : Finset ι) (f : ι → EReal) (hf : ∀ k, 0 ≤ f k) :
    a * ∑ k ∈ s, f k = ∑ k ∈ s, a * f k := by
  classical
  induction s using Finset.induction_on with
  | empty => simp
  | insert k s hk ih =>
    rw [Finset.sum_insert hk, Finset.sum_insert hk,
      EReal.left_distrib_of_nonneg (hf k) (Finset.sum_nonneg (fun j _ => hf j)), ih]

end Cert.NonnegSum
-- ==== Proof.PairAlgebra.lean ====
/-
  The blocked pairwise ranking loss equals the plain one, on the extended reals.

  With every label weight equal to 0 or 1, every factor that occurs is nonnegative: a maximum with 0, a weight p, a
  complement 1 - p (which is 1 or 0), and the scale c.  On nonnegative extended reals multiplication distributes over
  addition, hence over finite sums of nonnegative terms; a weight that is 0 or 1 can be moved inside a sum outright.
  The rest is the regrouping of the row range 0..2047 into 8 blocks of 256 and of the column range into 4 blocks of 512.
-/
import proofs.«181403_j43963285241920_2_alg».proof.Proof.PairLoss
import proofs.«181403_j43963285241920_2_alg».proof.Proof.LibNonnegSum
import Mathlib.Data.EReal.Operations
import Mathlib.Algebra.BigOperators.Group.Finset.Basic
import Mathlib.Algebra.BigOperators.Group.Finset.Sigma
import Mathlib.Data.Fintype.BigOperators

namespace Cert.PairLoss

open Finset

open Cert.NonnegSum (mul_sum_of_nonneg)

/-- A weight that is 0 or 1 is nonnegative. -/
theorem nonneg_of_zero_or_one {q : EReal} (hq : q = 0 ∨ q = 1) : 0 ≤ q := by
  rcases hq with h | h <;> rw [h]
  exact zero_le_one

/-- The complement of a weight that is 0 or 1 is 1 or 0, hence nonnegative. -/
theorem one_sub_nonneg_of_zero_or_one {q : EReal} (hq : q = 0 ∨ q = 1) : 0 ≤ 1 - q := by
  rcases hq with h | h <;> rw [h]
  · rw [sub_zero]; exact zero_le_one
  · rw [EReal.sub_self (by decide) (by decide)]

/-- One row against one set of columns: the row's weight P ∈ {0, 1} moves inside both sums, and the scale
c ≥ 0 inside the second. -/
theorem row_identity {ι : Type*} (s : Finset ι) (c P : EReal) (a h q : ι → EReal) (hc : 0 ≤ c)
    (hP : P = 0 ∨ P = 1) (hh : ∀ j, 0 ≤ h j) (hq : ∀ j, q j = 0 ∨ q j = 1) :
    P * ((∑ j ∈ s, a j * q j) + c * ∑ j ∈ s, h j * (1 - q j))
      = ∑ j ∈ s, (a j * (P * q j) + c * h j * (P * (1 - q j))) := by
  rcases hP with rfl | rfl
  · simp
  · have hterm : ∀ j, 0 ≤ h j * (1 - q j) :=
      fun j => EReal.mul_nonneg (hh j) (one_sub_nonneg_of_zero_or_one (hq j))
    rw [one_mul, mul_sum_of_nonneg c s _ hterm, ← Finset.sum_add_distrib]
    refine Finset.sum_congr rfl (fun j _ => ?_)
    rw [one_mul, one_mul, mul_assoc]

/-- The pair (row block, row in block) runs over every row exactly once. -/
def rowEquiv : Fin 8 × Fin 256 ≃ Fin 2048 where
  toFun q := rowAt q.1 q.2
  invFun k := (⟨k.val / 256, by omega⟩, ⟨k.val % 256, by omega⟩)
  left_inv := by
    rintro ⟨I, i⟩
    ext
    · simp only [rowAt]; omega
    · simp only [rowAt]; omega
  right_inv := by
    intro k
    ext
    simp only [rowAt]; omega

/-- The pair (column block, column in block) runs over every column exactly once. -/
def colEquiv : Fin 4 × Fin 512 ≃ Fin 2048 where
  toFun q := colAt q.1 q.2
  invFun k := (⟨k.val / 512, by omega⟩, ⟨k.val % 512, by omega⟩)
  left_inv := by
    rintro ⟨J, j⟩
    ext
    · simp only [colAt]; omega
    · simp only [colAt]; omega
  right_inv := by
    intro k
    ext
    simp only [colAt]; omega

/-- Summing block by block over the rows is summing over all rows. -/
theorem sum_rows {M : Type*} [AddCommMonoid M] (f : Fin 2048 → M) :
    ∑ I : Fin 8, ∑ i : Fin 256, f (rowAt I i) = ∑ k : Fin 2048, f k :=
  (Fintype.sum_prod_type' (fun I i => f (rowAt I i))).symm.trans
    (Fintype.sum_equiv rowEquiv _ _ (fun _ => rfl))

/-- Summing block by block over the columns is summing over all columns. -/
theorem sum_cols {M : Type*} [AddCommMonoid M] (f : Fin 2048 → M) :
    ∑ J : Fin 4, ∑ j : Fin 512, f (colAt J j) = ∑ k : Fin 2048, f k :=
  (Fintype.sum_prod_type' (fun J j => f (colAt J j))).symm.trans
    (Fintype.sum_equiv colEquiv _ _ (fun _ => rfl))

/-- One block's contribution is the sum of the summands of the block. -/
theorem part_eq_sum_term (c : EReal) (x p : Fin 16 → Fin 2048 → EReal) (n : Fin 2048 → Fin 2048 → EReal)
    (hc : 0 ≤ c) (hp : ∀ b i, p b i = 0 ∨ p b i = 1) (b : Fin 16) (I : Fin 8) (J : Fin 4) :
    part c x p n b I J = ∑ i : Fin 256, ∑ j : Fin 512, term c x p n b (rowAt I i) (colAt J j) := by
  unfold part
  refine Finset.sum_congr rfl (fun i _ => ?_)
  exact row_identity Finset.univ c (p b (rowAt I i))
    (fun j => max (n (rowAt I i) (colAt J j) * (x b (rowAt I i) - x b (colAt J j))) 0)
    (fun j => max (0 - (x b (rowAt I i) - x b (colAt J j))) 0)
    (fun j => p b (colAt J j)) hc (hp b (rowAt I i)) (fun j => le_max_right _ _) (fun j => hp b (colAt J j))

/-- The blocked loss is the loss. -/
theorem sum_part_eq_total (c : EReal) (x p : Fin 16 → Fin 2048 → EReal) (n : Fin 2048 → Fin 2048 → EReal)
    (hc : 0 ≤ c) (hp : ∀ b i, p b i = 0 ∨ p b i = 1) :
    ∑ b : Fin 16, ∑ I : Fin 8, ∑ J : Fin 4, part c x p n b I J = total c x p n := by
  unfold total
  refine Finset.sum_congr rfl (fun b _ => ?_)
  calc ∑ I : Fin 8, ∑ J : Fin 4, part c x p n b I J
      = ∑ I : Fin 8, ∑ J : Fin 4, ∑ i : Fin 256, ∑ j : Fin 512,
          term c x p n b (rowAt I i) (colAt J j) :=
        Finset.sum_congr rfl (fun I _ => Finset.sum_congr rfl
          (fun J _ => part_eq_sum_term c x p n hc hp b I J))
    _ = ∑ I : Fin 8, ∑ i : Fin 256, ∑ J : Fin 4, ∑ j : Fin 512,
          term c x p n b (rowAt I i) (colAt J j) :=
        Finset.sum_congr rfl (fun I _ => Finset.sum_comm)
    _ = ∑ I : Fin 8, ∑ i : Fin 256, ∑ l : Fin 2048, term c x p n b (rowAt I i) l :=
        Finset.sum_congr rfl (fun I _ => Finset.sum_congr rfl
          (fun i _ => sum_cols (fun l => term c x p n b (rowAt I i) l)))
    _ = ∑ k : Fin 2048, ∑ l : Fin 2048, term c x p n b k l :=
        sum_rows (fun k => ∑ l : Fin 2048, term c x p n b k l)

end Cert.PairLoss
-- ==== Proof.Labels.lean ====
/-
  The precondition decoded at the label array.

  The precondition is a conjunction of three one-bit words; the last says that every entry of the 32-bit label array is
  equal to the word 0 or to the word 1 (an "and" over all 16 × 2048 entries of the "or" of two equality tests). A
  conjunction of one-bit words is 1 only when every conjunct is 1, so each entry is the word 0 or the word 1; read as a
  signed integer and then as an extended real, the entry is therefore 0 or 1.
-/
import proofs.«181403_j43963285241920_2_alg».proof.Defs
import Idealize.ShloMosaic.Lib.ReduceAll
import Idealize.ShloMosaic.Lib.ValueIdx

noncomputable section

namespace Cert.Labels

open Idealize.ShloMosaic Idealize.SL.Sem Idealize.ShloMosaic.ValueIdx
open Cert.Pre_finite_inputs

/-- The scalar shape has one index. -/
instance subsingleton_S_ : Subsingleton S_.Idx := ⟨fun a b => funext fun d => d.elim0⟩

/-- Every entry of the label array is the word 0 or the word 1. -/
theorem label_word [Cert.Pre_finite_inputs.Facts]
    (a0 : (⟨S16x2048, .f32⟩ : BufTy).Contents (Elt Ideal)) (a1 : (⟨S16x2048, .i32⟩ : BufTy).Contents (Elt Ideal))
    (a2 : (⟨S2048, .f32⟩ : BufTy).Contents (Elt Ideal))
    (h : Cert.Pre_finite_inputs.fn (F := Ideal) a0 a1 a2 = fun _ => 1#1) (i : S16x2048.Idx) :
    a1 i = 0#32 ∨ a1 i = 1#32 := by
  have e := congrFun h ix0
  dsimp only [Cert.Pre_finite_inputs.fn] at e
  -- the outer "and": keep the last conjunct, the "all" over the label tests
  have e2 := (IntOp.andi_eq_one.1 e).2
  -- every entry of the reduced array is 1
  have e3 := Host.reduce_andi_all _ _ _ _ _ e2 i
  -- the entry is the "or" of the two equality tests against the constants 0 and 1
  rcases IntOp.ori_eq_one.1 e3 with h0 | h1
  · exact Or.inl (IntOp.cmpi_eq.1 h0)
  · exact Or.inr (IntOp.cmpi_eq.1 h1)

/-- Every label, converted to a float at the exact instance, is 0 or 1. -/
theorem label_zero_or_one [Cert.Pre_finite_inputs.Facts]
    (a0 : (⟨S16x2048, .f32⟩ : BufTy).Contents (Elt Ideal)) (a1 : (⟨S16x2048, .i32⟩ : BufTy).Contents (Elt Ideal))
    (a2 : (⟨S2048, .f32⟩ : BufTy).Contents (Elt Ideal))
    (h : Cert.Pre_finite_inputs.fn (F := Ideal) a0 a1 a2 = fun _ => 1#1) (i : S16x2048.Idx) :
    sitofp (F := Ideal) (s := S16x2048) .f32 a1 i = 0
      ∨ sitofp (F := Ideal) (s := S16x2048) .f32 a1 i = 1 := by
  have hs : sitofp (F := Ideal) (s := S16x2048) .f32 a1 i = (((a1 i).toInt : ℝ) : EReal) := rfl
  rw [hs]
  rcases label_word a0 a1 a2 h i with h0 | h1
  · left
    rw [h0]
    have : (0#32).toInt = 0 := by decide
    rw [this, Int.cast_zero, EReal.coe_zero]
  · right
    rw [h1]
    have : (1#32).toInt = 1 := by decide
    rw [this, Int.cast_one, EReal.coe_one]

/-- The same at the launch memory of the kernel: the precondition of the claim gives it on every device. -/
theorem of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : S16x2048.Idx) :
    sitofp (F := Ideal) (s := S16x2048) .f32
        (m ((c.tc : Thread Cert.KernelIdeal.nD Cert.KernelIdeal.τ).loc Cert.KernelIdeal.main_arg1)) i = 0
      ∨ sitofp (F := Ideal) (s := S16x2048) .f32
        (m ((c.tc : Thread Cert.KernelIdeal.nD Cert.KernelIdeal.τ).loc Cert.KernelIdeal.main_arg1)) i = 1 :=
  label_zero_or_one _ _ _ (hpre c) i

end Cert.Labels

end
-- ==== Proof.lean ====
/-
  A pairwise ranking loss: the kernel and its reference return the same number on the extended reals.

  Both programs first compute, by the same host operations, the scores x = 1 / (1 + exp (−input)), the label weights
  p = the integer labels as numbers, and the table n i j = (f i − f j) / (f i + f j) of the frequencies f. The reference
  then sums, over every sample b and every ordered pair (i, j),
      max (n i j · (x b i − x b j)) 0 · (p b i · p b j)  +  c · max (0 − (x b i − x b j)) 0 · (p b i · (1 − p b j)),
  and divides by the batch size. The kernel walks a grid of 2 sample blocks × 8 row blocks × 4 column blocks; at a point it
  adds to the sample block's output block, for each sample b of the block, the partial sum over the rows i of the row
  block of  p b i · (Σ_j max (n i j · (x b i − x b j)) 0 · p b j  +  c · Σ_j max (0 − (x b i − x b j)) 0 · (1 − p b j))
  over the columns j of the column block, resetting the output block at the first point of a sample block and writing it
  back after the last; the host then sums the sixteen rows and divides by the batch size.

  The two agree because, the labels being 0 or 1 (the precondition), every factor is nonnegative — a maximum with 0, a
  label weight, one minus a label weight, the scale c — and on nonnegative extended reals multiplication distributes over
  finite sums, whatever the table holds (a frequency pair with zero sum makes an entry infinite; nothing here needs it
  finite). The regrouping of the ranges (8 × 256 rows, 4 × 512 columns, 2 × 8 samples, the 32 points of a sample block in
  order) is commutativity and associativity of the sum.

  The frames: each program runs to the end, faults nowhere, and leaves its arguments as they were. The kernel's scores array
  and labels array are each read through two windows, so the region is entered with each of those two arrays' buffers held
  in two halves and left with the halves joined again. The idealization rewrote nothing, so there is nothing to preserve.
-/
import proofs.«181403_j43963285241920_2_alg».proof.Defs
import proofs.«181403_j43963285241920_2_alg».proof.Proof.Gen.Kernel
import proofs.«181403_j43963285241920_2_alg».proof.Proof.Gen.KernelIdeal
import proofs.«181403_j43963285241920_2_alg».proof.Proof.Gen.ReferenceIdeal
import proofs.«181403_j43963285241920_2_alg».proof.Proof.Gen.ReferenceIdeal.Run
import proofs.«181403_j43963285241920_2_alg».proof.Proof.Gen.ReferenceIdeal.Read
import proofs.«181403_j43963285241920_2_alg».proof.Proof.Gen.Pre_finite_inputs
import proofs.«181403_j43963285241920_2_alg».proof.Proof.WLaunch
import proofs.«181403_j43963285241920_2_alg».proof.Proof.KLaunch
import proofs.«181403_j43963285241920_2_alg».proof.Proof.KTail
import proofs.«181403_j43963285241920_2_alg».proof.Proof.KStages
import proofs.«181403_j43963285241920_2_alg».proof.Proof.KRows
import proofs.«181403_j43963285241920_2_alg».proof.Proof.PairAlgebra
import proofs.«181403_j43963285241920_2_alg».proof.Proof.Labels
import proofs.«181403_j43963285241920_2_alg».proof.Proof.RefValue
import Idealize.ShloMosaic.Adequacy
import Idealize.ShloMosaic.Init

noncomputable section

namespace Cert.Proof

open Idealize.ShloMosaic Idealize.ShloMosaic.TcCoe Idealize.SL.Sem

/-- The scale of the second term, the single-precision word nearest to one tenth, is a nonnegative number. -/
theorem scale_nonneg : (0 : EReal) ≤ Ideal.ofBits .f32 0x3DCCCCCD#32 := by
  simp [Ideal.ofBits, Ideal.ieee, -EReal.coe_mul]

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

/-- The label weights are 0 or 1 under the precondition. -/
theorem labels_binary (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 16) (i : Fin 2048) :
    Cert.KernelIdeal.Hand.labels m c b i = 0 ∨ Cert.KernelIdeal.Hand.labels m c b i = 1 := by
  rw [Cert.KernelIdeal.Hand.labels_eq]
  unfold Cert.RefValue.P
  rw [Cert.RefValue.P_stage]
  exact Cert.Labels.of_pre m hpre c (ValueIdx.ix2 b i)

/-- The kernel's result is the loss: zero plus the sum of every summand, divided by the literal sixteen. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.V3 (F := Ideal) m c Cert.KernelIdeal.main_v20
      = fun _ => Ideal.div (0 + Cert.PairLoss.total (Ideal.ofBits .f32 0x3DCCCCCD#32)
          (Cert.RefValue.X (m ((c.tc : Thread Cert.KernelIdeal.nD Cert.KernelIdeal.τ).loc Cert.KernelIdeal.main_arg0)))
          (Cert.RefValue.P (m ((c.tc : Thread Cert.KernelIdeal.nD Cert.KernelIdeal.τ).loc Cert.KernelIdeal.main_arg1)))
          (Cert.RefValue.N (m ((c.tc : Thread Cert.KernelIdeal.nD Cert.KernelIdeal.τ).loc Cert.KernelIdeal.main_arg2))))
        (Ideal.ofBits .f32 0x41800000#32) := by
  rw [Cert.KernelIdeal.Hand.result_value]
  funext k
  refine congrArg (fun t => Ideal.div ((0 : EReal) + t) (Ideal.ofBits .f32 0x41800000#32)) ?_
  unfold Cert.KernelIdeal.Hand.outRow Cert.KernelIdeal.Hand.outFinal
  rw [Cert.KernelIdeal.Hand.final_out, Cert.KernelIdeal.Hand.sum_result,
    Cert.PairLoss.sum_part_eq_total _ _ _ _ scale_nonneg (labels_binary m hpre c),
    Cert.KernelIdeal.Hand.scores_eq, Cert.KernelIdeal.Hand.labels_eq, Cert.KernelIdeal.Hand.table_eq]

theorem preserves : Cert.preserves_Kernel_KernelIdeal := trivial

/-- At the exact instance both programs end at the same number: the kernel's run leaves the result at the loss
    (`kernel_value`), and the reference's run at its own term, which is the same loss of arguments that agree. -/
theorem algebraic : Cert.algebraic_KernelIdeal_ReferenceIdeal := by
  intro m ρ m' ρ' hpre hagree
  refine ⟨fun c => Cert.KernelIdeal.Hand.V3 (F := Ideal) m c Cert.KernelIdeal.main_v20, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.RefValue.ref_value, (hagree c).1, (hagree c).2.1, (hagree c).2.2]
  exact (kernel_value m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
